-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x64x64 : Shape := ⟨4, ![64, 3, 64, 64]⟩
abbrev S3x64x64x128 : Shape := ⟨4, ![3, 64, 64, 128]⟩
abbrev S3x64x64 : Shape := ⟨3, ![3, 64, 64]⟩
abbrev S_ : Shape := ⟨0, ![]⟩

class Facts : Prop where
  bcast_S_S64x3x64x64 : S_.BroadcastsInDim S64x3x64x64 (![] : Fin 0 → Fin S64x3x64x64.rank)
  reducesTo_S64x3x64x64_S_d0_1_2_3 : S64x3x64x64.ReducesTo [0, 1, 2, 3] S_
  h_S_ : 0 < S_.numel
  bcast_S_S3x64x64x128 : S_.BroadcastsInDim S3x64x64x128 (![] : Fin 0 → Fin S3x64x64x128.rank)
  reducesTo_S3x64x64x128_S_d0_1_2_3 : S3x64x64x128.ReducesTo [0, 1, 2, 3] S_
  bcast_S_S3x64x64 : S_.BroadcastsInDim S3x64x64 (![] : Fin 0 → Fin S3x64x64.rank)
  reducesTo_S3x64x64_S_d0_1_2 : S3x64x64.ReducesTo [0, 1, 2] S_

variable [Facts]

def fn_part1 {F : FTy → Type} [FloatOps F] (main_arg4 : FVec F S3x64x64 .f32) (main_arg5 : FVec F S3x64x64 .f32) (main_v13 : IVec S_ 1) (main_v16 : IVec S3x64x64x128 1) : IVec S_ 1 :=
  let main_c_5 : IVec S_ 1 := constantI S_ 1 1#1
  let main_v17 : IVec S_ 1 := (fun x v => Host.reduce IntOp.andi x v reducesTo_S3x64x64x128_S_d0_1_2_3 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64x64 .f32 := Host.absf main_arg5
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  main_v28

def fn {F : FTy → Type} [FloatOps F] (main_arg0 : FVec F S64x3x64x64 .f32) (main_arg1 : FVec F S3x64x64x128 .f32) (main_arg2 : FVec F S3x64x64x128 .f32) (main_arg3 : FVec F S3x64x64x128 .f32) (main_arg4 : FVec F S3x64x64 .f32) (main_arg5 : FVec F S3x64x64 .f32) : IVec S_ 1 :=
  let main_v0 : FVec F S64x3x64x64 .f32 := Host.absf main_arg0
  let main_cst : FVec F S_ .f32 := constant S_ .f32 0x7F800000#32
  let main_v1 : FVec F S64x3x64x64 .f32 := broadcastInDim S64x3x64x64 ![] bcast_S_S64x3x64x64 main_cst
  let main_v2 : IVec S64x3x64x64 1 := cmpf .olt main_v0 main_v1
  let main_c : IVec S_ 1 := constantI S_ 1 1#1
  let main_v3 : IVec S_ 1 := (fun x v => Host.reduce IntOp.andi x v reducesTo_S64x3x64x64_S_d0_1_2_3 h_S_) main_v2 main_c
  let main_v4 : FVec F S3x64x64x128 .f32 := Host.absf main_arg1
  let main_cst_0 : FVec F S_ .f32 := constant S_ .f32 0x7F800000#32
  let main_v5 : FVec F S3x64x64x128 .f32 := broadcastInDim S3x64x64x128 ![] bcast_S_S3x64x64x128 main_cst_0
  let main_v6 : IVec S3x64x64x128 1 := cmpf .olt main_v4 main_v5
  let main_c_1 : IVec S_ 1 := constantI S_ 1 1#1
  let main_v7 : IVec S_ 1 := (fun x v => Host.reduce IntOp.andi x v reducesTo_S3x64x64x128_S_d0_1_2_3 h_S_) main_v6 main_c_1
  let main_v8 : IVec S_ 1 := andi main_v3 main_v7
  let main_v9 : FVec F S3x64x64x128 .f32 := Host.absf main_arg2
  let main_cst_2 : FVec F S_ .f32 := constant S_ .f32 0x7F800000#32
  let main_v10 : FVec F S3x64x64x128 .f32 := broadcastInDim S3x64x64x128 ![] bcast_S_S3x64x64x128 main_cst_2
  let main_v11 : IVec S3x64x64x128 1 := cmpf .olt main_v9 main_v10
  let main_c_3 : IVec S_ 1 := constantI S_ 1 1#1
  let main_v12 : IVec S_ 1 := (fun x v => Host.reduce IntOp.andi x v reducesTo_S3x64x64x128_S_d0_1_2_3 h_S_) main_v11 main_c_3
  let main_v13 : IVec S_ 1 := andi main_v8 main_v12
  let main_v14 : FVec F S3x64x64x128 .f32 := Host.absf main_arg3
  let main_cst_4 : FVec F S_ .f32 := constant S_ .f32 0x7F800000#32
  let main_v15 : FVec F S3x64x64x128 .f32 := broadcastInDim S3x64x64x128 ![] bcast_S_S3x64x64x128 main_cst_4
  let main_v16 : IVec S3x64x64x128 1 := cmpf .olt main_v14 main_v15
  fn_part1 (F := F) main_arg4 main_arg5 main_v13 main_v16
-- ==== Kernel.lean ====
abbrev S64x3x64x64 : Shape := ⟨4, ![64, 3, 64, 64]⟩
abbrev S3x64x64x128 : Shape := ⟨4, ![3, 64, 64, 128]⟩
abbrev S3x64x64 : Shape := ⟨3, ![3, 64, 64]⟩
abbrev S64x12288 : Shape := ⟨2, ![64, 12288]⟩
abbrev S12288x128 : Shape := ⟨2, ![12288, 128]⟩
abbrev S1x12288 : Shape := ⟨2, ![1, 12288]⟩
abbrev S64x1 : Shape := ⟨2, ![64, 1]⟩
abbrev S32x256 : Shape := ⟨2, ![32, 256]⟩
abbrev S256x128 : Shape := ⟨2, ![256, 128]⟩
abbrev S1x256 : Shape := ⟨2, ![1, 256]⟩
abbrev S32x1 : Shape := ⟨2, ![32, 1]⟩
abbrev S256 : Shape := ⟨1, ![256]⟩
abbrev S256x1 : Shape := ⟨2, ![256, 1]⟩
abbrev S1x256x128 : Shape := ⟨3, ![1, 256, 128]⟩
abbrev S32x256x1 : Shape := ⟨3, ![32, 256, 1]⟩
abbrev S32x256x128 : Shape := ⟨3, ![32, 256, 128]⟩
abbrev S32 : Shape := ⟨1, ![32]⟩
abbrev S64 : Shape := ⟨1, ![64]⟩

abbrev nBuf : Space → Nat
  | .hbm => 16
  | .vmem => 16
  | .smem => 0
  | _ => 0

abbrev bufTy : (tb : Table) → Fin (tcTables nBuf tb) → BufTy
  | .hbm, ⟨0, _⟩ => ⟨S64x3x64x64, .f32⟩
  | .hbm, ⟨1, _⟩ => ⟨S3x64x64x128, .f32⟩
  | .hbm, ⟨2, _⟩ => ⟨S3x64x64x128, .f32⟩
  | .hbm, ⟨3, _⟩ => ⟨S3x64x64x128, .f32⟩
  | .hbm, ⟨4, _⟩ => ⟨S3x64x64, .f32⟩
  | .hbm, ⟨5, _⟩ => ⟨S3x64x64, .f32⟩
  | .hbm, ⟨6, _⟩ => ⟨S64x12288, .f32⟩
  | .hbm, ⟨7, _⟩ => ⟨S12288x128, .f32⟩
  | .hbm, ⟨8, _⟩ => ⟨S12288x128, .f32⟩
  | .hbm, ⟨9, _⟩ => ⟨S12288x128, .f32⟩
  | .hbm, ⟨10, _⟩ => ⟨S1x12288, .f32⟩
  | .hbm, ⟨11, _⟩ => ⟨S1x12288, .f32⟩
  | .hbm, ⟨12, _⟩ => ⟨S64x12288, .f32⟩
  | .hbm, ⟨13, _⟩ => ⟨S64x1, .f32⟩
  | .hbm, ⟨14, _⟩ => ⟨S64x3x64x64, .f32⟩
  | .hbm, ⟨15, _⟩ => ⟨S64, .f32⟩
  | .local _ .vmem, ⟨0, _⟩ => ⟨S32x256, .f32⟩
  | .local _ .vmem, ⟨1, _⟩ => ⟨S32x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S32x256, .f32⟩
  | .local _ .vmem, ⟨13, _⟩ => ⟨S32x256, .f32⟩
  | .local _ .vmem, ⟨14, _⟩ => ⟨S32x1, .f32⟩
  | .local _ .vmem, ⟨15, _⟩ => ⟨S32x1, .f32⟩
  | _, _ => ⟨S64x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S64x3x64x64_S64x12288 : S64x3x64x64.ShapeCasts S64x12288
  shapeCasts_S3x64x64x128_S12288x128 : S3x64x64x128.ShapeCasts S12288x128
  shapeCasts_S3x64x64_S1x12288 : S3x64x64.ShapeCasts S1x12288
  inb_S32x1_S32x1_0_0 : ∀ a, (![0, 0] : Fin 2 → Nat) a + S32x1.size a ≤ S32x1.size a
  h_S32x1 : 0 < S32x1.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S256x128_S256 : S256x128.Reduces [1] S256
  shapeCasts_S256_S256x1 : S256.ShapeCasts S256x1
  broadcasts_S256x1_S256x128 : S256x1.Broadcasts S256x128
  shapeCasts_S256x128_S1x256x128 : S256x128.ShapeCasts S1x256x128
  reduces_S1x256x128_S1x256 : S1x256x128.Reduces [2] S1x256
  shapeCasts_S32x256_S32x256x1 : S32x256.ShapeCasts S32x256x1
  broadcasts_S1x256x128_S32x256x128 : S1x256x128.Broadcasts S32x256x128
  broadcasts_S32x256x1_S32x256x128 : S32x256x1.Broadcasts S32x256x128
  reduces_S32x256x128_S32x256 : S32x256x128.Reduces [2] S32x256
  broadcasts_S1x256_S32x256 : S1x256.Broadcasts S32x256
  reduces_S32x256_S32 : S32x256.Reduces [1] S32
  shapeCasts_S32_S32x1 : S32.ShapeCasts S32x1
  shapeCasts_S32x1_S32x1 : S32x1.ShapeCasts S32x1
  shapeCasts_S64x12288_S64x3x64x64 : S64x12288.ShapeCasts S64x3x64x64
  shapeCasts_S64x1_S64 : S64x1.ShapeCasts S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S64x12288.size a
  hwx0_0 : ∀ i : grid0.Coords, EltTy.bits .f32 = 32 ∨ (Rect.block (s := S64x12288) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S12288x128.size a
  hwx0_1 : ∀ i : grid0.Coords, EltTy.bits .f32 = 32 ∨ (Rect.block (s := S12288x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S12288x128.size a
  hwx0_2 : ∀ i : grid0.Coords, EltTy.bits .f32 = 32 ∨ (Rect.block (s := S12288x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S12288x128.size a
  hwx0_3 : ∀ i : grid0.Coords, EltTy.bits .f32 = 32 ∨ (Rect.block (s := S12288x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x12288.size a
  hwx0_4 : ∀ i : grid0.Coords, EltTy.bits .f32 = 32 ∨ (Rect.block (s := S1x12288) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x12288.size a
  hwx0_5 : ∀ i : grid0.Coords, EltTy.bits .f32 = 32 ∨ (Rect.block (s := S1x12288) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S64x12288.size a
  hwx0_6 : ∀ i : grid0.Coords, EltTy.bits .f32 = 32 ∨ (Rect.block (s := S64x12288) S32x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S64x1.size a
  hwx0_7 : ∀ i : grid0.Coords, EltTy.bits .f32 = 32 ∨ (Rect.block (s := S64x1) S32x1.size (cc0_transform_7 i) (hinb0_7 i)).WholeWords (EltTy.packing .f32)

variable [Facts₀]

abbrev win0_0 : Pipeline.Window sig grid0 :=
  Pipeline.Window.ofSpec (Memref.whole main_v0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S32x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S32x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x3x64x64 : Shape := ⟨4, ![64, 3, 64, 64]⟩
abbrev S3x64x64x128 : Shape := ⟨4, ![3, 64, 64, 128]⟩
abbrev S3x64x64 : Shape := ⟨3, ![3, 64, 64]⟩
abbrev S_ : Shape := ⟨0, ![]⟩
abbrev S3x64x64x1 : Shape := ⟨4, ![3, 64, 64, 1]⟩
abbrev S64x3x64x64x1 : Shape := ⟨5, ![64, 3, 64, 64, 1]⟩
abbrev S1x3x64x64x128 : Shape := ⟨5, ![1, 3, 64, 64, 128]⟩
abbrev S64x3x64x64x128 : Shape := ⟨5, ![64, 3, 64, 64, 128]⟩
abbrev S1x3x64x64 : Shape := ⟨4, ![1, 3, 64, 64]⟩
abbrev S64 : Shape := ⟨1, ![64]⟩

abbrev nBuf : Space → Nat
  | .hbm => 88
  | .vmem => 0
  | .smem => 0
  | _ => 0

abbrev bufTy : (tb : Table) → Fin (tcTables nBuf tb) → BufTy
  | .hbm, ⟨0, _⟩ => ⟨S64x3x64x64, .f32⟩
  | .hbm, ⟨1, _⟩ => ⟨S3x64x64x128, .f32⟩
  | .hbm, ⟨2, _⟩ => ⟨S3x64x64x128, .f32⟩
  | .hbm, ⟨3, _⟩ => ⟨S3x64x64x128, .f32⟩
  | .hbm, ⟨4, _⟩ => ⟨S3x64x64, .f32⟩
  | .hbm, ⟨5, _⟩ => ⟨S3x64x64, .f32⟩
  | .hbm, ⟨6, _⟩ => ⟨S_, .f32⟩
  | .hbm, ⟨7, _⟩ => ⟨S3x64x64x128, .f32⟩
  | .hbm, ⟨8, _⟩ => ⟨S3x64x64x128, .f32⟩
  | .hbm, ⟨9, _⟩ => ⟨S3x64x64x128, .f32⟩
  | .hbm, ⟨10, _⟩ => ⟨S3x64x64x128, .f32⟩
  | .hbm, ⟨11, _⟩ => ⟨S3x64x64x128, .i1⟩
  | .hbm, ⟨12, _⟩ => ⟨S3x64x64x128, .f32⟩
  | .hbm, ⟨13, _⟩ => ⟨S3x64x64x128, .f32⟩
  | .hbm, ⟨14, _⟩ => ⟨S3x64x64x128, .f32⟩
  | .hbm, ⟨15, _⟩ => ⟨S3x64x64x128, .f32⟩
  | .hbm, ⟨16, _⟩ => ⟨S3x64x64x128, .f32⟩
  | .hbm, ⟨17, _⟩ => ⟨S3x64x64x128, .f32⟩
  | .hbm, ⟨18, _⟩ => ⟨S3x64x64x128, .f32⟩
  | .hbm, ⟨19, _⟩ => ⟨S3x64x64x128, .f32⟩
  | .hbm, ⟨20, _⟩ => ⟨S_, .f32⟩
  | .hbm, ⟨21, _⟩ => ⟨S3x64x64, .f32⟩
  | .hbm, ⟨22, _⟩ => ⟨S_, .f32⟩
  | .hbm, ⟨23, _⟩ => ⟨S3x64x64, .f32⟩
  | .hbm, ⟨24, _⟩ => ⟨S3x64x64, .f32⟩
  | .hbm, ⟨25, _⟩ => ⟨S3x64x64x1, .f32⟩
  | .hbm, ⟨26, _⟩ => ⟨S3x64x64x128, .f32⟩
  | .hbm, ⟨27, _⟩ => ⟨S3x64x64x128, .f32⟩
  | .hbm, ⟨28, _⟩ => ⟨S3x64x64x128, .f32⟩
  | .hbm, ⟨29, _⟩ => ⟨S_, .f32⟩
  | .hbm, ⟨30, _⟩ => ⟨S3x64x64, .f32⟩
  | .hbm, ⟨31, _⟩ => ⟨S3x64x64x1, .f32⟩
  | .hbm, ⟨32, _⟩ => ⟨S3x64x64x128, .f32⟩
  | .hbm, ⟨33, _⟩ => ⟨S3x64x64x128, .f32⟩
  | .hbm, ⟨34, _⟩ => ⟨S3x64x64, .f32⟩
  | .hbm, ⟨35, _⟩ => ⟨S64x3x64x64x1, .f32⟩
  | .hbm, ⟨36, _⟩ => ⟨S1x3x64x64x128, .f32⟩
  | .hbm, ⟨37, _⟩ => ⟨S64x3x64x64x128, .f32⟩
  | .hbm, ⟨38, _⟩ => ⟨S64x3x64x64x128, .f32⟩
  | .hbm, ⟨39, _⟩ => ⟨S64x3x64x64x128, .f32⟩
  | .hbm, ⟨40, _⟩ => ⟨S1x3x64x64x128, .f32⟩
  | .hbm, ⟨41, _⟩ => ⟨S64x3x64x64x128, .f32⟩
  | .hbm, ⟨42, _⟩ => ⟨S64x3x64x64x128, .f32⟩
  | .hbm, ⟨43, _⟩ => ⟨S_, .f32⟩
  | .hbm, ⟨44, _⟩ => ⟨S3x64x64x128, .f32⟩
  | .hbm, ⟨45, _⟩ => ⟨S3x64x64x128, .f32⟩
  | .hbm, ⟨46, _⟩ => ⟨S3x64x64x128, .f32⟩
  | .hbm, ⟨47, _⟩ => ⟨S_, .f32⟩
  | .hbm, ⟨48, _⟩ => ⟨S64x3x64x64x128, .f32⟩
  | .hbm, ⟨49, _⟩ => ⟨S64x3x64x64x128, .f32⟩
  | .hbm, ⟨50, _⟩ => ⟨S64x3x64x64x128, .f32⟩
  | .hbm, ⟨51, _⟩ => ⟨S1x3x64x64x128, .f32⟩
  | .hbm, ⟨52, _⟩ => ⟨S64x3x64x64x128, .f32⟩
  | .hbm, ⟨53, _⟩ => ⟨S64x3x64x64x128, .f32⟩
  | .hbm, ⟨54, _⟩ => ⟨S_, .f32⟩
  | .hbm, ⟨55, _⟩ => ⟨S3x64x64x128, .f32⟩
  | .hbm, ⟨56, _⟩ => ⟨S3x64x64x128, .f32⟩
  | .hbm, ⟨57, _⟩ => ⟨S1x3x64x64x128, .f32⟩
  | .hbm, ⟨58, _⟩ => ⟨S64x3x64x64x128, .f32⟩
  | .hbm, ⟨59, _⟩ => ⟨S64x3x64x64x128, .f32⟩
  | .hbm, ⟨60, _⟩ => ⟨S1x3x64x64x128, .f32⟩
  | .hbm, ⟨61, _⟩ => ⟨S64x3x64x64x128, .f32⟩
  | .hbm, ⟨62, _⟩ => ⟨S64x3x64x64x128, .f32⟩
  | .hbm, ⟨63, _⟩ => ⟨S_, .f32⟩
  | .hbm, ⟨64, _⟩ => ⟨S64x3x64x64, .f32⟩
  | .hbm, ⟨65, _⟩ => ⟨S1x3x64x64, .f32⟩
  | .hbm, ⟨66, _⟩ => ⟨S64x3x64x64, .f32⟩
  | .hbm, ⟨67, _⟩ => ⟨S64x3x64x64, .f32⟩
  | .hbm, ⟨68, _⟩ => ⟨S64x3x64x64, .f32⟩
  | .hbm, ⟨69, _⟩ => ⟨S1x3x64x64, .f32⟩
  | .hbm, ⟨70, _⟩ => ⟨S64x3x64x64, .f32⟩
  | .hbm, ⟨71, _⟩ => ⟨S64x3x64x64, .f32⟩
  | .hbm, ⟨72, _⟩ => ⟨S3x64x64, .f32⟩
  | .hbm, ⟨73, _⟩ => ⟨S_, .f32⟩
  | .hbm, ⟨74, _⟩ => ⟨S64x3x64x64x128, .f32⟩
  | .hbm, ⟨75, _⟩ => ⟨S64x3x64x64x128, .f32⟩
  | .hbm, ⟨76, _⟩ => ⟨S64x3x64x64x128, .f32⟩
  | .hbm, ⟨77, _⟩ => ⟨S1x3x64x64x128, .f32⟩
  | .hbm, ⟨78, _⟩ => ⟨S64x3x64x64x128, .f32⟩
  | .hbm, ⟨79, _⟩ => ⟨S64x3x64x64x128, .f32⟩
  | .hbm, ⟨80, _⟩ => ⟨S_, .f32⟩
  | .hbm, ⟨81, _⟩ => ⟨S64x3x64x64, .f32⟩
  | .hbm, ⟨82, _⟩ => ⟨S1x3x64x64, .f32⟩
  | .hbm, ⟨83, _⟩ => ⟨S64x3x64x64, .f32⟩
  | .hbm, ⟨84, _⟩ => ⟨S64x3x64x64, .f32⟩
  | .hbm, ⟨85, _⟩ => ⟨S64x3x64x64, .f32⟩
  | .hbm, ⟨86, _⟩ => ⟨S_, .f32⟩
  | .hbm, ⟨87, _⟩ => ⟨S64, .f32⟩
  | _, _ => ⟨S64x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  bcast_S_S3x64x64x128 : S_.BroadcastsInDim S3x64x64x128 (![] : Fin 0 → Fin S3x64x64x128.rank)
  reducesTo_S3x64x64x128_S3x64x64_d3 : S3x64x64x128.ReducesTo [3] S3x64x64
  h_S_ : 0 < S_.numel
  bcast_S_S3x64x64 : S_.BroadcastsInDim S3x64x64 (![] : Fin 0 → Fin S3x64x64.rank)
  bcast_S3x64x64_S3x64x64x1_0_1_2 : S3x64x64.BroadcastsInDim S3x64x64x1 (![0, 1, 2] : Fin 3 → Fin S3x64x64x1.rank)
  bcast_S3x64x64x1_S3x64x64x128_0_1_2_3 : S3x64x64x1.BroadcastsInDim S3x64x64x128 (![0, 1, 2, 3] : Fin 4 → Fin S3x64x64x128.rank)
  bcast_S64x3x64x64_S64x3x64x64x1_0_1_2_3 : S64x3x64x64.BroadcastsInDim S64x3x64x64x1 (![0, 1, 2, 3] : Fin 4 → Fin S64x3x64x64x1.rank)
  bcast_S3x64x64x128_S1x3x64x64x128_1_2_3_4 : S3x64x64x128.BroadcastsInDim S1x3x64x64x128 (![1, 2, 3, 4] : Fin 4 → Fin S1x3x64x64x128.rank)
  bcast_S1x3x64x64x128_S64x3x64x64x128_0_1_2_3_4 : S1x3x64x64x128.BroadcastsInDim S64x3x64x64x128 (![0, 1, 2, 3, 4] : Fin 5 → Fin S64x3x64x64x128.rank)
  bcast_S64x3x64x64x1_S64x3x64x64x128_0_1_2_3_4 : S64x3x64x64x1.BroadcastsInDim S64x3x64x64x128 (![0, 1, 2, 3, 4] : Fin 5 → Fin S64x3x64x64x128.rank)
  bcast_S_S64x3x64x64x128 : S_.BroadcastsInDim S64x3x64x64x128 (![] : Fin 0 → Fin S64x3x64x64x128.rank)
  reducesTo_S64x3x64x64x128_S64x3x64x64_d4 : S64x3x64x64x128.ReducesTo [4] S64x3x64x64
  bcast_S3x64x64_S1x3x64x64_1_2_3 : S3x64x64.BroadcastsInDim S1x3x64x64 (![1, 2, 3] : Fin 3 → Fin S1x3x64x64.rank)
  bcast_S1x3x64x64_S64x3x64x64_0_1_2_3 : S1x3x64x64.BroadcastsInDim S64x3x64x64 (![0, 1, 2, 3] : Fin 4 → Fin S64x3x64x64.rank)
  reducesTo_S64x3x64x64_S64_d1_2_3 : S64x3x64x64.ReducesTo [1, 2, 3] S64

variable [Facts₀]

class Facts : Prop extends Facts₀ where

variable [Facts]
-- ==== Proof.KernelPieces.lean ====
/-
  What one run of the kernel body leaves in its two output blocks, as values of the six input blocks.

  The [32, 256] output block is overwritten whole with the body's y payload.  The [32, 1] accumulator block is, at a
  grid point that starts a batch tile (second grid coordinate 0), first reset to zero and then overwritten with
  "zero block + lane sums"; at every other point it is overwritten with "previous contents + lane sums".
-/
import proofs.«100866_j71459665871290_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a point that does not start a tile, the stored y block is the y payload of the input blocks. -/
theorem yBlock_cont (c : Dev nD) (i : grid0.Coords) (a2 : Memref sig .tc .vmem S32x256 .f32) (h2 : a2.IsWhole) (a3 : Memref sig .tc .vmem S256x128 .f32) (h3 : a3.IsWhole) (a4 : Memref sig .tc .vmem S256x128 .f32) (h4 : a4.IsWhole) (a5 : Memref sig .tc .vmem S256x128 .f32) (h5 : a5.IsWhole) (a6 : Memref sig .tc .vmem S1x256 .f32) (h6 : a6.IsWhole) (a7 : Memref sig .tc .vmem S1x256 .f32) (h7 : a7.IsWhole) (a8 : Memref sig .tc .vmem S32x256 .f32) (h8 : a8.IsWhole) (a9 : Memref sig .tc .vmem S32x1 .f32) (h9 : a9.IsWhole) (hc : ¬cond0_0 i) (x0 : Vec F S32x256 .f32) (x1 x2 x3 : Vec F S256x128 .f32) (x4 x5 : Vec F S1x256 .f32) (xo7 : Vec F S32x1 .f32) :
    out0_B_6 c i a2 h2 a3 h3 a4 h4 a5 h5 a6 h6 a7 h7 a8 h8 a9 h9 hc x0 x1 x2 x3 x4 x5 xo7 = k0_pay15 (k0_pay3 x0) (k0_pay4 x2) (k0_pay5 x3) (k0_pay6 x4) (k0_pay7 x5) (k0_pay8 x1) (k0_pay9 x1) (k0_pay10 x3) := by
  unfold out0_B_6
  rw [View.read_writes_eq_canon _ _ _ (cover0_B_6 c i a2 h2 a3 h3 a4 h4 a5 h5 a6 h6 a7 h7 a8 h8 a9 h9 hc x0 x1 x2 x3 x4 x5 xo7)]
  unfold kernelRun0_B
  dsimp only
  sl_unfold_words
  rw [View.canon_unit_zero hz]
  simp only [View.readAt_eq_ld, h2.read_unread, h3.read_unread, h4.read_unread, h5.read_unread, h6.read_unread, h7.read_unread, h9.read_unread,
    View.ld_unit_zero (S := S32x256) hz, View.ld_unit_zero (S := S256x128) hz, View.ld_unit_zero (S := S1x256) hz, View.ld_unit_zero (S := S32x1) hz]

/-- At a point that starts a tile, the same. -/
theorem yBlock_start (c : Dev nD) (i : grid0.Coords) (a2 : Memref sig .tc .vmem S32x256 .f32) (h2 : a2.IsWhole) (a3 : Memref sig .tc .vmem S256x128 .f32) (h3 : a3.IsWhole) (a4 : Memref sig .tc .vmem S256x128 .f32) (h4 : a4.IsWhole) (a5 : Memref sig .tc .vmem S256x128 .f32) (h5 : a5.IsWhole) (a6 : Memref sig .tc .vmem S1x256 .f32) (h6 : a6.IsWhole) (a7 : Memref sig .tc .vmem S1x256 .f32) (h7 : a7.IsWhole) (a8 : Memref sig .tc .vmem S32x256 .f32) (h8 : a8.IsWhole) (a9 : Memref sig .tc .vmem S32x1 .f32) (h9 : a9.IsWhole) (hc : cond0_0 i) (x0 : Vec F S32x256 .f32) (x1 x2 x3 : Vec F S256x128 .f32) (x4 x5 : Vec F S1x256 .f32) :
    out0_A_6 c i a2 h2 a3 h3 a4 h4 a5 h5 a6 h6 a7 h7 a8 h8 a9 h9 hc x0 x1 x2 x3 x4 x5 = k0_pay15 (k0_pay3 x0) (k0_pay4 x2) (k0_pay5 x3) (k0_pay6 x4) (k0_pay7 x5) (k0_pay8 x1) (k0_pay9 x1) (k0_pay10 x3) := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h2.read_unread, h3.read_unread, h4.read_unread, h5.read_unread, h6.read_unread, h7.read_unread, h9.read_unread,
    View.ld_unit_zero (S := S32x256) hz, View.ld_unit_zero (S := S256x128) hz, View.ld_unit_zero (S := S1x256) hz, View.ld_unit_zero (S := S32x1) hz]

/-- At a point that does not start a tile, the accumulator block becomes its previous contents plus the lane sums. -/
theorem accBlock_cont (c : Dev nD) (i : grid0.Coords) (a2 : Memref sig .tc .vmem S32x256 .f32) (h2 : a2.IsWhole) (a3 : Memref sig .tc .vmem S256x128 .f32) (h3 : a3.IsWhole) (a4 : Memref sig .tc .vmem S256x128 .f32) (h4 : a4.IsWhole) (a5 : Memref sig .tc .vmem S256x128 .f32) (h5 : a5.IsWhole) (a6 : Memref sig .tc .vmem S1x256 .f32) (h6 : a6.IsWhole) (a7 : Memref sig .tc .vmem S1x256 .f32) (h7 : a7.IsWhole) (a8 : Memref sig .tc .vmem S32x256 .f32) (h8 : a8.IsWhole) (a9 : Memref sig .tc .vmem S32x1 .f32) (h9 : a9.IsWhole) (hc : ¬cond0_0 i) (x0 : Vec F S32x256 .f32) (x1 x2 x3 : Vec F S256x128 .f32) (x4 x5 : Vec F S1x256 .f32) (xo7 : Vec F S32x1 .f32) :
    out0_B_7 c i a2 h2 a3 h3 a4 h4 a5 h5 a6 h6 a7 h7 a8 h8 a9 h9 hc x0 x1 x2 x3 x4 x5 xo7 = k0_pay1 (k0_pay16 (k0_pay3 x0) (k0_pay4 x2) (k0_pay5 x3) (k0_pay7 x5) (k0_pay8 x1) (k0_pay10 x3)) xo7 := by
  unfold out0_B_7
  rw [View.read_writes_eq_canon _ _ _ (cover0_B_7 c i a2 h2 a3 h3 a4 h4 a5 h5 a6 h6 a7 h7 a8 h8 a9 h9 hc x0 x1 x2 x3 x4 x5 xo7)]
  unfold kernelRun0_B
  dsimp only
  sl_unfold_words
  rw [View.canon_unit_zero hz]
  simp only [View.readAt_eq_ld, h2.read_unread, h3.read_unread, h4.read_unread, h5.read_unread, h6.read_unread, h7.read_unread, h9.read_unread,
    View.ld_unit_zero (S := S32x256) hz, View.ld_unit_zero (S := S256x128) hz, View.ld_unit_zero (S := S1x256) hz, View.ld_unit_zero (S := S32x1) hz]

/-- At a point that starts a tile, the accumulator block becomes the zero block plus the lane sums. -/
theorem accBlock_start (c : Dev nD) (i : grid0.Coords) (a2 : Memref sig .tc .vmem S32x256 .f32) (h2 : a2.IsWhole) (a3 : Memref sig .tc .vmem S256x128 .f32) (h3 : a3.IsWhole) (a4 : Memref sig .tc .vmem S256x128 .f32) (h4 : a4.IsWhole) (a5 : Memref sig .tc .vmem S256x128 .f32) (h5 : a5.IsWhole) (a6 : Memref sig .tc .vmem S1x256 .f32) (h6 : a6.IsWhole) (a7 : Memref sig .tc .vmem S1x256 .f32) (h7 : a7.IsWhole) (a8 : Memref sig .tc .vmem S32x256 .f32) (h8 : a8.IsWhole) (a9 : Memref sig .tc .vmem S32x1 .f32) (h9 : a9.IsWhole) (hc : cond0_0 i) (x0 : Vec F S32x256 .f32) (x1 x2 x3 : Vec F S256x128 .f32) (x4 x5 : Vec F S1x256 .f32) :
    out0_A_7 c i a2 h2 a3 h3 a4 h4 a5 h5 a6 h6 a7 h7 a8 h8 a9 h9 hc x0 x1 x2 x3 x4 x5 = k0_pay1 (k0_pay16 (k0_pay3 x0) (k0_pay4 x2) (k0_pay5 x3) (k0_pay7 x5) (k0_pay8 x1) (k0_pay10 x3)) (k0_pay2 (F := F)) := by
  unfold out0_A_7
  rw [View.read_writes_eq_canon _ _ _ (cover0_A_7 c i a2 h2 a3 h3 a4 h4 a5 h5 a6 h6 a7 h7 a8 h8 a9 h9 hc x0 x1 x2 x3 x4 x5)]
  unfold kernelRun0_A
  dsimp only
  sl_unfold_words
  rw [View.canon_cons_unit_zero (S := S32x1) hz, View.readCov_unit_zero (S := S32x1) _ hz]
  simp only [View.readAt_eq_ld, h2.read_unread, h3.read_unread, h4.read_unread, h5.read_unread, h6.read_unread, h7.read_unread, h9.read_unread,
    View.ld_unit_zero (S := S32x256) hz, View.ld_unit_zero (S := S256x128) hz, View.ld_unit_zero (S := S1x256) hz, View.ld_unit_zero (S := S32x1) hz]

end Cert.KernelIdeal.Pieces

end
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.FlowSpec.lean ====
/-
  The mathematics of one sinusoidal-flow layer on the extended reals, entry by entry.

  A pixel carries a scalar x, three rows of 128 numbers (raw input weights a, input biases β, raw mixing
  weights o), an output bias and a raw residual weight r.  With w = softplus a (entrywise), π = softmax o,
  u = w·x + β:

      y      = x + tanh r · Σₑ πₑ · (sin 2βₑ − sin 2uₑ) / (2 wₑ) + bias
      term   = log (1 + (−tanh r) · Σₑ πₑ · cos 2uₑ)

  and the log-determinant of a batch row is the sum of `term` over its 3·64·64 pixels.  The kernel spells the
  first sum as  Σₑ (πₑ · sin 2βₑ) · ιₑ − Σₑ (πₑ · ιₑ) · sin 2uₑ  with ιₑ = 1 / (2 wₑ); the two spellings agree
  when every input is finite (proved in FlowAlgebra).
-/
import Idealize.ShloMosaic.PureOps.Ideal.Laws
import Idealize.ShloMosaic.Lib.ValueIdx
import proofs.«100866_j71459665871290_2_alg».proof.Proof.LibRowReduce

noncomputable section

namespace SineFlow

open Idealize.ShloMosaic Idealize.ShloMosaic.ValueIdx RowReduce

/-- The f32 words the two programs share, as extended reals: 0, 1, 2 and −∞. -/
abbrev w0 : EReal := Ideal.ofBits .f32 0x00000000#32
abbrev w1 : EReal := Ideal.ofBits .f32 0x3F800000#32
abbrev w2 : EReal := Ideal.ofBits .f32 0x40000000#32
abbrev wNegInf : EReal := Ideal.ofBits .f32 0xFF800000#32

/-- softplus v = max v 0 + log (1 + exp (−|v − 0|)). -/
def softplus (v : EReal) : EReal :=
  max v w0 + Ideal.log1p (Ideal.exp (-(max (v - w0) (-(v - w0)))))

/-- The largest entry of a row (folded from −∞, and once more against −∞). -/
def rowMax (o : Fin 128 → EReal) : EReal := max wNegInf (foldMax wNegInf o)

/-- exp (oₑ − max o). -/
def expRow (o : Fin 128 → EReal) (e : Fin 128) : EReal := Ideal.exp (o e - rowMax o)

/-- softmax: πₑ = exp (oₑ − max o) / Σₖ exp (oₖ − max o). -/
def mix (o : Fin 128 → EReal) (e : Fin 128) : EReal := Ideal.div (expRow o e) (∑ k : Fin 128, expRow o k)

/-- uₑ = softplus aₑ · x + βₑ. -/
def pre (x : EReal) (a β : Fin 128 → EReal) (e : Fin 128) : EReal := softplus (a e) * x + β e

/-- ιₑ = 1 / (2 · softplus aₑ). -/
def inv2w (a : Fin 128 → EReal) (e : Fin 128) : EReal := Ideal.div w1 (w2 * softplus (a e))

/-- The kernel's spelling of the inner sum: Σₑ (πₑ · sin 2βₑ) · ιₑ − Σₑ (πₑ · ιₑ) · sin 2uₑ. -/
def innerSplit (x : EReal) (a β o : Fin 128 → EReal) : EReal :=
  (∑ e : Fin 128, mix o e * Ideal.sin (w2 * β e) * inv2w a e)
    - ∑ e : Fin 128, mix o e * inv2w a e * Ideal.sin (w2 * pre x a β e)

/-- The reference's spelling: Σₑ πₑ · ((sin 2βₑ − sin 2uₑ) / (2 wₑ)). -/
def innerJoint (x : EReal) (a β o : Fin 128 → EReal) : EReal :=
  ∑ e : Fin 128, mix o e * Ideal.div (Ideal.sin (w2 * β e) - Ideal.sin (w2 * pre x a β e)) (w2 * softplus (a e))

/-- y in the kernel's spelling and in the reference's. -/
def ySplit (x : EReal) (a β o : Fin 128 → EReal) (bias r : EReal) : EReal :=
  x + Ideal.tanh r * innerSplit x a β o + bias
def yJoint (x : EReal) (a β o : Fin 128 → EReal) (bias r : EReal) : EReal :=
  x + Ideal.tanh r * innerJoint x a β o + bias

/-- One pixel's log-determinant term: log (1 + (−tanh r) · Σₑ πₑ · cos 2uₑ). -/
def ldTerm (x : EReal) (a β o : Fin 128 → EReal) (r : EReal) : EReal :=
  Ideal.log1p (-(Ideal.tanh r) * ∑ e : Fin 128, mix o e * Ideal.cos (w2 * pre x a β e))

/-! ## The two result arrays, index by index, as functions of the six argument arrays -/

abbrev SX : Shape := ⟨4, ![64, 3, 64, 64]⟩
abbrev SW : Shape := ⟨4, ![3, 64, 64, 128]⟩
abbrev SP : Shape := ⟨3, ![3, 64, 64]⟩
abbrev SB : Shape := ⟨1, ![64]⟩

/-- Row (c, h, w) of a [3, 64, 64, 128] array. -/
abbrev rowOf (W : SW.Idx → EReal) (c : Fin 3) (h w : Fin 64) : Fin 128 → EReal := fun e => W (ix4 c h w e)

/-- y at (b, c, h, w), reference spelling and kernel spelling. -/
def yArr (x : SX.Idx → EReal) (A B O : SW.Idx → EReal) (bias R : SP.Idx → EReal) : SX.Idx → EReal := fun i =>
  yJoint (x i) (rowOf A (i 1) (i 2) (i 3)) (rowOf B (i 1) (i 2) (i 3)) (rowOf O (i 1) (i 2) (i 3))
    (bias (ix3 (i 1) (i 2) (i 3))) (R (ix3 (i 1) (i 2) (i 3)))
def yArrSplit (x : SX.Idx → EReal) (A B O : SW.Idx → EReal) (bias R : SP.Idx → EReal) : SX.Idx → EReal := fun i =>
  ySplit (x i) (rowOf A (i 1) (i 2) (i 3)) (rowOf B (i 1) (i 2) (i 3)) (rowOf O (i 1) (i 2) (i 3))
    (bias (ix3 (i 1) (i 2) (i 3))) (R (ix3 (i 1) (i 2) (i 3)))

/-- The log-determinant of batch row b: the sum of the pixel terms over (c, h, w). -/
def ldArr (x : SX.Idx → EReal) (A B O : SW.Idx → EReal) (R : SP.Idx → EReal) : SB.Idx → EReal := fun i =>
  ∑ c : Fin 3, ∑ h : Fin 64, ∑ w : Fin 64,
    ldTerm (x (ix4 (i 0) c h w)) (rowOf A c h w) (rowOf B c h w) (rowOf O c h w) (R (ix3 c h w))

end SineFlow

end
-- ==== Proof.LibBatchRows.lean ====
/-
  Reading a three-dimensional value [a, b, c] row by row on the extended reals.

  A statistic of each row (p, q) — a reduction over the last axis — kept with a unit last axis, [a, b, 1], and
  broadcast back along that axis reads, at (p, q, j), the statistic of row (p, q).  The sum of a row is the
  finite sum of its entries, and the maximum of a row is the fold of `max` over its entries from the starting
  value.
-/
import Idealize.ShloMosaic.PureOps.Ideal.Laws
import Idealize.ShloMosaic.Lib.Pipeline.Value
import Idealize.ShloMosaic.Lib.ValueIdx
import proofs.«100866_j71459665871290_2_alg».proof.Proof.LibRowReduce

noncomputable section

namespace BatchRows

open Idealize.ShloMosaic Idealize.ShloMosaic.ValueIdx RowReduce

section Layout
variable {α : Type}

/-- An [a, b] value viewed as [a, b, 1] reads entry (p, q) at (p, q, 0). -/
theorem shapeCast_keep_apply {a b : Nat} (z : (⟨2, ![a, b]⟩ : Shape).Idx → α)
    (h : (⟨2, ![a, b]⟩ : Shape).ShapeCasts ⟨3, ![a, b, 1]⟩) (p : Fin a) (q : Fin b) (t : Fin 1) :
    shapeCast ⟨3, ![a, b, 1]⟩ z h (ix3 p q t) = z (ix2 p q) := by
  refine shapeCast_apply z h (ix3 p q t) (ix2 p q) ?_
  rw [Shape.rowMajor_val_two, Shape.rowMajor_val_three]
  show p.val * b + q.val = (p.val * b + q.val) * 1 + t.val
  have := t.isLt
  omega

/-- An [a, b, 1] value broadcast along its last axis to [a, b, c] reads (p, q, 0) at (p, q, j). -/
theorem broadcastTo_keep_apply {a b c : Nat} (z : (⟨3, ![a, b, 1]⟩ : Shape).Idx → α)
    (h : (⟨3, ![a, b, 1]⟩ : Shape).Broadcasts ⟨3, ![a, b, c]⟩) (p : Fin a) (q : Fin b) (j : Fin c) :
    broadcastTo ⟨3, ![a, b, c]⟩ z h (ix3 p q j) = z (ix3 p q (0 : Fin 1)) := by
  refine broadcastTo_apply z h (ix3 p q j) (ix3 p q (0 : Fin 1)) fun d => ?_
  match d with
  | ⟨0, _⟩ =>
    show p.val = if a = 1 then 0 else p.val
    by_cases h1 : a = 1
    · rw [if_pos h1]; have := p.isLt; omega
    · rw [if_neg h1]
  | ⟨1, _⟩ =>
    show q.val = if b = 1 then 0 else q.val
    by_cases h1 : b = 1
    · rw [if_pos h1]; have := q.isLt; omega
    · rw [if_neg h1]
  | ⟨2, _⟩ =>
    show (0 : Nat) = if (1 : Nat) = 1 then 0 else j.val
    rw [if_pos rfl]

/-- So a row statistic `z` kept with a unit last axis and broadcast back reads `z (p, q)` at (p, q, j). -/
theorem keep_broadcast_apply {a b c : Nat} (z : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (p : Fin a) (q : Fin b) (j : Fin c) :
    broadcastTo ⟨3, ![a, b, c]⟩ (shapeCast ⟨3, ![a, b, 1]⟩ z h1) h2 (ix3 p q j) = z (ix2 p q) :=
  (broadcastTo_keep_apply _ h2 p q j).trans (shapeCast_keep_apply z h1 p q 0)

end Layout

/-! ## A reduction over the last axis of a three-dimensional value -/

/-- The sum over the last axis, at row (p, q): the sum of the row's entries. -/
theorem multiReduction_add_row3 {a b c : Nat} {φ : FTy} (x : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (p : Fin a) (q : Fin b) :
    multiReduction (F := Ideal) .add [2] ⟨2, ![a, b]⟩ x acc h hφ hacc (ix2 p q) = ∑ k : Fin c, x (ix3 p q k) := by
  refine (Ideal.multiReduction_add_single x acc h hφ hacc (ix2 p q)).trans ?_
  exact Finset.sum_congr rfl fun k _ => congrArg x (lift_last3 h p q k)

/-- The maximum over the last axis, at row (p, q): the fold of `max` over the row's entries. -/
theorem multiReduction_max_row3 {a b c : Nat} {φ : FTy} (x : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.maximumf.neutral φ hφ) (p : Fin a) (q : Fin b) :
    multiReduction (F := Ideal) .maximumf [2] ⟨2, ![a, b]⟩ x acc h hφ hacc (ix2 p q)
      = foldMax (Ideal.ofBits φ acc) fun k : Fin c => x (ix3 p q k) := by
  refine (Ideal.multiReduction_maximumf_single x acc h hφ hacc (ix2 p q)).trans ?_
  have hf : (x ∘ h.lift (ix2 p q)) = fun k : Fin c => x (ix3 p q k) :=
    funext fun k => congrArg x (lift_last3 h p q k)
  unfold foldMax
  exact congrArg (fun f => Finset.fold max (Ideal.ofBits φ acc) f (Finset.univ : Finset (Fin c))) hf

end BatchRows

end
-- ==== Proof.LibLeadAxis.lean ====
/-
  A two-dimensional value repeated along a new leading axis.

  An [a, b] value viewed as [1, a, b] and broadcast to [c, a, b] reads its entry (i, j) at every (p, i, j).
-/
import Idealize.ShloMosaic.Lib.Pipeline.Value
import Idealize.ShloMosaic.Lib.ValueIdx
import Idealize.ShloMosaic.Lib.ValueLayout

noncomputable section

namespace LeadAxis

open Idealize.ShloMosaic Idealize.ShloMosaic.ValueIdx

section Layout
variable {α : Type}

/-- A [1, a, b] value repeated along a new leading extent c reads (0, i, j) at (p, i, j). -/
theorem broadcastTo_lead_apply {a b c : Nat} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An [a, b] value viewed as [1, a, b] and repeated along a leading extent c reads (i, j) at (p, i, j). -/
theorem lead_broadcast_apply {a b c : Nat} (z : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![c, a, b]⟩) (p : Fin c) (i : Fin a) (j : Fin b) :
    broadcastTo ⟨3, ![c, a, b]⟩ (shapeCast ⟨3, ![1, a, b]⟩ z h1) h2 (ix3 p i j) = z (ix2 i j) :=
  (broadcastTo_lead_apply _ h2 p i j).trans (shapeCast_ab_1ab_apply z h1 0 i j)

end Layout

end LeadAxis

end
-- ==== Proof.KernelPayload.lean ====
/-
  The kernel body's arithmetic read entry by entry on the extended reals.

  A grid point sees a [32, 256] block of x, three [256, 128] blocks (raw input weights, input biases, raw mixing
  weights) and two [1, 256] rows (output bias, raw residual weight).  At entry (p, q) the block it stores is the
  layer's y in the kernel's spelling (SineFlow.ySplit) of x(p, q), rows q of the three blocks and entries q of the
  two rows; the value whose lane sums it accumulates is the pixel's log-determinant term (SineFlow.ldTerm); and the
  accumulator it stores back is the accumulator it loaded plus the sum over the 256 lanes.
-/
import proofs.«100866_j71459665871290_2_alg».proof.Proof.Gen.KernelIdeal.Skeleton
import proofs.«100866_j71459665871290_2_alg».proof.Proof.FlowSpec
import proofs.«100866_j71459665871290_2_alg».proof.Proof.LibRowReduce
import proofs.«100866_j71459665871290_2_alg».proof.Proof.LibBatchRows
import proofs.«100866_j71459665871290_2_alg».proof.Proof.LibLeadAxis
import Idealize.ShloMosaic.Lib.ValueLayout
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen SineFlow RowReduce BatchRows LeadAxis

/-- The zero word is 0, so subtracting from it negates. -/
theorem w0_sub (t : EReal) : w0 - t = -t := by
  show Ideal.ofBits .f32 0x00000000#32 - t = -t
  rw [Ideal.ofBits_zero_f32, zero_sub]

/-- A comparison "d ≠ d" is never true on the extended reals, so a select on it takes its second value. -/
theorem select_ne_self (d a b : EReal) : Scalar.select (Ideal.cmp .one d d) a b = b := by
  have h : Ideal.cmp .one d d = 0#1 := by simp [Ideal.cmp]
  rw [h]; rfl

variable (x0 : Vec Ideal S32x256 .f32) (x1 x2 x3 : Vec Ideal S256x128 .f32) (x4 x5 : Vec Ideal S1x256 .f32)

/-- Row q of a [256, 128] block. -/
abbrev row (v : Vec Ideal S256x128 .f32) (q : Fin 256) : Fin 128 → EReal := fun e => v (ix2 q e)

/-- The positive input weight at (q, e) is softplus of the raw one. -/
theorem weight_apply (q : Fin 256) (e : Fin 128) : k0_pay8 x1 (ix2 q e) = softplus (x1 (ix2 q e)) := by
  unfold k0_pay8
  rw [shapeCast_self]
  refine (select_ne_self _ _ _).trans ?_
  unfold softplus
  rw [← w0_sub]
  rfl

/-- The row maximum of the mixing block, kept as a column and spread back over the lanes, reads the maximum of row q. -/
theorem rowMax_apply (q : Fin 256) (e : Fin 128) :
    broadcastTo S256x128 (k0_pay10 x3) broadcasts_S256x1_S256x128 (ix2 q e) = rowMax (row x3 q) := by
  unfold k0_pay10 k0_pay5
  rw [shapeCast_self]
  refine (column_broadcast_apply _ _ _ q e).trans ?_
  refine (maximumf_apply _ _ (ix1 q)).trans ?_
  unfold rowMax
  refine congrArg (max _) ?_
  exact multiReduction_max_row x3 _ _ _ _ q

/-- exp (o − max o) at (q, e). -/
theorem expRow_apply (q : Fin 256) (e : Fin 128) :
    Idealize.ShloMosaic.exp (subf (k0_pay5 x3) (broadcastTo S256x128 (k0_pay10 x3) broadcasts_S256x1_S256x128)) (ix2 q e)
      = expRow (row x3 q) e := by
  show Ideal.exp (k0_pay5 x3 (ix2 q e) - broadcastTo S256x128 (k0_pay10 x3) broadcasts_S256x1_S256x128 (ix2 q e)) = _
  rw [rowMax_apply]
  unfold k0_pay5
  rw [shapeCast_self]
  rfl

/-- The softmax weight at (q, e). -/
theorem mix_apply (q : Fin 256) (e : Fin 128) :
    k0_pay11 (k0_pay5 x3) (k0_pay10 x3) (ix2 q e) = mix (row x3 q) e := by
  unfold k0_pay11
  refine (divf_apply _ _ (ix2 q e)).trans ?_
  unfold mix
  refine congrArg₂ Ideal.div (expRow_apply x3 q e) ?_
  refine (column_broadcast_apply _ _ _ q e).trans ?_
  refine (multiReduction_add_row _ _ _ _ _ q).trans ?_
  exact Finset.sum_congr rfl fun k _ => expRow_apply x3 q k

/-- u = softplus a · x + β at (p, q, e). -/
theorem pre_apply (p : Fin 32) (q : Fin 256) (e : Fin 128) :
    k0_pay14 (k0_pay3 x0) (k0_pay4 x2) (k0_pay8 x1) (ix3 p q e)
      = pre (x0 (ix2 p q)) (row x1 q) (row x2 q) e := by
  unfold k0_pay14
  refine (addf_apply _ _ (ix3 p q e)).trans ?_
  unfold pre
  refine congrArg₂ (· + ·) ?_ ?_
  · refine (mulf_apply _ _ (ix3 p q e)).trans ?_
    refine congrArg₂ (· * ·) ?_ ?_
    · exact (lead_broadcast_apply _ _ _ p q e).trans (weight_apply x1 q e)
    · refine (keep_broadcast_apply _ _ _ p q e).trans ?_
      unfold k0_pay3
      rw [shapeCast_self]
  · refine (lead_broadcast_apply _ _ _ p q e).trans ?_
    unfold k0_pay4
    rw [shapeCast_self]

/-- ι = 1 / (2 · softplus a) at (q, e). -/
theorem inv2w_apply (q : Fin 256) (e : Fin 128) : k0_pay9 x1 (ix2 q e) = inv2w (row x1 q) e := by
  unfold k0_pay9
  refine (divf_apply _ _ (ix2 q e)).trans ?_
  unfold inv2w
  refine congrArg₂ Ideal.div rfl ?_
  refine (mulf_apply _ _ (ix2 q e)).trans ?_
  exact congrArg₂ (· * ·) rfl (weight_apply x1 q e)

/-- One of the two [1, 256] rows spread over the 32 batch rows reads its entry q at (p, q). -/
theorem rowEntry_apply (v : FVec Ideal S1x256 .f32) (p : Fin 32) (q : Fin 256) :
    broadcastTo S32x256 v broadcasts_S1x256_S32x256 (ix2 p q) = v (ix2 (0 : Fin 1) q) :=
  broadcastTo_1b_ab_apply v _ p q

/-- The stored block at (p, q): the layer's y in the kernel's spelling. -/
theorem y_apply (p : Fin 32) (q : Fin 256) :
    k0_pay15 (k0_pay3 x0) (k0_pay4 x2) (k0_pay5 x3) (k0_pay6 x4) (k0_pay7 x5) (k0_pay8 x1) (k0_pay9 x1) (k0_pay10 x3) (ix2 p q)
      = ySplit (x0 (ix2 p q)) (row x1 q) (row x2 q) (row x3 q) (x4 (ix2 (0 : Fin 1) q)) (x5 (ix2 (0 : Fin 1) q)) := by
  unfold k0_pay15
  refine (addf_apply _ _ (ix2 p q)).trans ?_
  unfold ySplit
  refine congrArg₂ (· + ·) ?_ ?_
  · refine (addf_apply _ _ (ix2 p q)).trans ?_
    refine congrArg₂ (· + ·) ?_ ?_
    · unfold k0_pay3
      rw [shapeCast_self]
    · refine (mulf_apply _ _ (ix2 p q)).trans ?_
      refine congrArg₂ (· * ·) ?_ ?_
      · refine (rowEntry_apply _ p q).trans ?_
        unfold k0_pay12 k0_pay7
        rw [shapeCast_self]
        rfl
      · refine (subf_apply _ _ (ix2 p q)).trans ?_
        unfold innerSplit
        refine congrArg₂ (· - ·) ?_ ?_
        · refine (rowEntry_apply _ p q).trans ?_
          refine (multiReduction_add_row3 _ _ _ _ _ (0 : Fin 1) q).trans ?_
          refine Finset.sum_congr rfl fun e _ => ?_
          refine (mulf_apply _ _ (ix3 (0 : Fin 1) q e)).trans ?_
          refine congrArg₂ (· * ·) ?_ ?_
          · refine (mulf_apply _ _ (ix3 (0 : Fin 1) q e)).trans ?_
            refine congrArg₂ (· * ·) ?_ ?_
            · unfold k0_pay13
              exact (shapeCast_ab_1ab_apply _ _ 0 q e).trans (mix_apply x3 q e)
            · refine (shapeCast_ab_1ab_apply _ _ 0 q e).trans ?_
              unfold k0_pay4
              rw [shapeCast_self]
              rfl
          · exact (shapeCast_ab_1ab_apply _ _ 0 q e).trans (inv2w_apply x1 q e)
        · refine (multiReduction_add_row3 _ _ _ _ _ p q).trans ?_
          refine Finset.sum_congr rfl fun e _ => ?_
          refine (mulf_apply _ _ (ix3 p q e)).trans ?_
          refine congrArg₂ (· * ·) ?_ ?_
          · refine (lead_broadcast_apply _ _ _ p q e).trans ?_
            refine (mulf_apply _ _ (ix2 q e)).trans ?_
            exact congrArg₂ (· * ·) (mix_apply x3 q e) (inv2w_apply x1 q e)
          · show Ideal.sin (w2 * k0_pay14 (k0_pay3 x0) (k0_pay4 x2) (k0_pay8 x1) (ix3 p q e)) = _
            rw [pre_apply]
  · refine (rowEntry_apply _ p q).trans ?_
    unfold k0_pay6
    rw [shapeCast_self]

/-- The value whose lane sums are accumulated, at (p, q): the pixel's log-determinant term. -/
theorem term_apply (p : Fin 32) (q : Fin 256) :
    k0_pay16 (k0_pay3 x0) (k0_pay4 x2) (k0_pay5 x3) (k0_pay7 x5) (k0_pay8 x1) (k0_pay10 x3) (ix2 p q)
      = ldTerm (x0 (ix2 p q)) (row x1 q) (row x2 q) (row x3 q) (x5 (ix2 (0 : Fin 1) q)) := by
  unfold k0_pay16
  show Ideal.log1p (_ * _) = _
  unfold ldTerm
  refine congrArg Ideal.log1p (congrArg₂ (· * ·) ?_ ?_)
  · refine (rowEntry_apply _ p q).trans ?_
    refine (subf_apply _ _ (ix2 (0 : Fin 1) q)).trans ?_
    refine (w0_sub _).trans ?_
    unfold k0_pay12 k0_pay7
    rw [shapeCast_self]
    rfl
  · refine (multiReduction_add_row3 _ _ _ _ _ p q).trans ?_
    refine Finset.sum_congr rfl fun e _ => ?_
    refine (mulf_apply _ _ (ix3 p q e)).trans ?_
    refine congrArg₂ (· * ·) ?_ ?_
    · unfold k0_pay13
      exact (lead_broadcast_apply _ _ _ p q e).trans (mix_apply x3 q e)
    · show Ideal.cos (w2 * k0_pay14 (k0_pay3 x0) (k0_pay4 x2) (k0_pay8 x1) (ix3 p q e)) = _
      rw [pre_apply]

/-- The accumulator stored back at row p: the accumulator loaded plus the sum of the row's 256 lane values. -/
theorem acc_apply (v87 : FVec Ideal S32x256 .f32) (v91 : Vec Ideal S32x1 .f32) (p : Fin 32) (u : Fin 1) :
    k0_pay1 v87 v91 (ix2 p u) = v91 (ix2 p u) + ∑ q : Fin 256, v87 (ix2 p q) := by
  unfold k0_pay1
  refine (addf_apply _ _ (ix2 p u)).trans ?_
  rw [shapeCast_self]
  refine congrArg₂ (· + ·) rfl ?_
  refine (shapeCast_column_apply _ _ p u).trans ?_
  exact multiReduction_add_row v87 _ _ _ _ p

end Cert.KernelIdeal.Payload

end
-- ==== Proof.LibChunkedSum.lean ====
/-
  A long sum cut into equal chunks.

  In any commutative monoid (no subtraction, no finiteness: the extended reals qualify) a sum over the first a*b
  naturals is the sum, over the a chunks s, of the sum over the b positions j inside chunk s of the term at s*b + j.
  Only associativity and commutativity of addition are used, so the regrouping holds whatever the summands are.
-/
import Mathlib.Algebra.BigOperators.Fin
import Mathlib.Algebra.BigOperators.Intervals

open Finset

namespace Cert.ChunkedSum

variable {β : Type*} [AddCommMonoid β]

/-- A sum over `range (a*b)` is the sum over the chunk number of the sums over the positions inside a chunk. -/
theorem sum_range_chunks (a b : ℕ) (f : ℕ → β) :
    ∑ h ∈ range (a * b), f h = ∑ s ∈ range a, ∑ j ∈ range b, f (s * b + j) := by
  induction a with
  | zero => simp
  | succ a ih => rw [Nat.succ_mul, Finset.sum_range_add, ih, Finset.sum_range_succ]

/-- The same with the long sum and the inner sums over `Fin`. -/
theorem sum_fin_chunks (a b : ℕ) (f : ℕ → β) :
    ∑ h : Fin (a * b), f h.val = ∑ s ∈ range a, ∑ j : Fin b, f (s * b + j.val) := by
  rw [Fin.sum_univ_eq_sum_range (fun h => f h) (a * b), sum_range_chunks]
  refine Finset.sum_congr rfl fun s _ => ?_
  rw [Fin.sum_univ_eq_sum_range (fun j => f (s * b + j)) b]

/-- A function on `Fin n` extended by zero to every natural. -/
def ext0 {n : ℕ} (g : Fin n → β) (k : ℕ) : β := if h : k < n then g ⟨k, h⟩ else 0

theorem ext0_val {n : ℕ} (g : Fin n → β) (h : Fin n) : ext0 g h.val = g h := by
  unfold ext0; rw [dif_pos h.isLt]

/-- A sum over `Fin (a*b)` of any function is the sum over the chunks of the chunk sums of its extension. -/
theorem sum_chunks_ext0 (a b : ℕ) (g : Fin (a * b) → β) :
    ∑ h : Fin (a * b), g h = ∑ s ∈ range a, ∑ j : Fin b, ext0 g (s * b + j.val) := by
  rw [← sum_fin_chunks a b (ext0 g)]
  exact Finset.sum_congr rfl fun h _ => (ext0_val g h).symm

end Cert.ChunkedSum
-- ==== Proof.FlowFlat.lean ====
/-
  The layer over the flattened pixel axis.

  The kernel sees x as [64, 12288], the three parameter arrays as [12288, 128] and the two per-pixel arrays as
  [1, 12288]: pixel (c, h, w) sits at n = 4096 c + 64 h + w.  Here are y and the log-determinant term at (b, n) as
  functions of such flat arrays, the term extended by zero to all naturals (so that a running sum over grid points can
  be written over ranges), and the regrouping of the sum over the 12288 pixels as 48 chunks of 256 and as (c, h, w).
-/
import proofs.«100866_j71459665871290_2_alg».proof.Proof.FlowSpec
import proofs.«100866_j71459665871290_2_alg».proof.Proof.LibChunkedSum

noncomputable section

namespace SineFlow

open Idealize.ShloMosaic Idealize.ShloMosaic.ValueIdx Finset

abbrev SXf : Shape := ⟨2, ![64, 12288]⟩
abbrev SWf : Shape := ⟨2, ![12288, 128]⟩
abbrev SPf : Shape := ⟨2, ![1, 12288]⟩

/-- Row n of a flat [12288, 128] array. -/
abbrev rowF (W : SWf.Idx → EReal) (n : Fin 12288) : Fin 128 → EReal := fun e => W (ix2 n e)

/-- y at batch row b, pixel n, in the kernel's spelling. -/
def yFlatAt (X : SXf.Idx → EReal) (A B O : SWf.Idx → EReal) (bias R : SPf.Idx → EReal) (b : Fin 64) (n : Fin 12288) : EReal :=
  ySplit (X (ix2 b n)) (rowF A n) (rowF B n) (rowF O n) (bias (ix2 (0 : Fin 1) n)) (R (ix2 (0 : Fin 1) n))

/-- The log-determinant term at batch row b, pixel n. -/
def termFlatAt (X : SXf.Idx → EReal) (A B O : SWf.Idx → EReal) (R : SPf.Idx → EReal) (b : Fin 64) (n : Fin 12288) : EReal :=
  ldTerm (X (ix2 b n)) (rowF A n) (rowF B n) (rowF O n) (R (ix2 (0 : Fin 1) n))

/-- The same on all pairs of naturals, zero outside the array. -/
def termNat (X : SXf.Idx → EReal) (A B O : SWf.Idx → EReal) (R : SPf.Idx → EReal) (b n : ℕ) : EReal :=
  if h : b < 64 ∧ n < 12288 then termFlatAt X A B O R ⟨b, h.1⟩ ⟨n, h.2⟩ else 0

theorem termNat_val (X : SXf.Idx → EReal) (A B O : SWf.Idx → EReal) (R : SPf.Idx → EReal) (b : Fin 64) (n : Fin 12288) :
    termNat X A B O R b.val n.val = termFlatAt X A B O R b n := by
  unfold termNat
  rw [dif_pos ⟨b.isLt, n.isLt⟩]

/-- The 48 chunk sums of 256 terms add up to the sum over all 12288 pixels. -/
theorem sum_chunks_48 (f : ℕ → EReal) :
    ∑ j ∈ range 48, ∑ q : Fin 256, f (j * 256 + q.val) = ∑ n : Fin 12288, f n.val :=
  (Cert.ChunkedSum.sum_fin_chunks 48 256 f).symm

/-- The sum over the 12288 pixels is the sum over (c, h, w) at n = 4096 c + 64 h + w. -/
theorem sum_pixels (f : ℕ → EReal) :
    ∑ n : Fin 12288, f n.val = ∑ c : Fin 3, ∑ h : Fin 64, ∑ w : Fin 64, f (c.val * 4096 + h.val * 64 + w.val) := by
  rw [show (∑ n : Fin 12288, f n.val) = ∑ n : Fin (3 * 4096), f n.val from rfl,
    Cert.ChunkedSum.sum_fin_chunks 3 4096 f, ← Fin.sum_univ_eq_sum_range (fun c => ∑ j : Fin 4096, f (c * 4096 + j.val)) 3]
  refine Finset.sum_congr rfl fun c _ => ?_
  rw [show (∑ j : Fin 4096, f (c.val * 4096 + j.val)) = ∑ j : Fin (64 * 64), (fun k => f (c.val * 4096 + k)) j.val from rfl,
    Cert.ChunkedSum.sum_fin_chunks 64 64 (fun k => f (c.val * 4096 + k)),
    ← Fin.sum_univ_eq_sum_range (fun h => ∑ w : Fin 64, f (c.val * 4096 + (h * 64 + w.val))) 64]
  refine Finset.sum_congr rfl fun h _ => Finset.sum_congr rfl fun w _ => ?_
  rw [Nat.add_assoc]

end SineFlow

end
-- ==== Proof.KernelBlocks.lean ====
/-
  The kernel's grid, point by point.

  Grid point t = 48·bi + ni (bi < 2, ni < 48) sees rows 32·bi … 32·bi + 31 and pixels 256·ni … 256·ni + 255: its x
  block is [32·bi + p, 256·ni + q], its three parameter blocks are rows 256·ni + q, its two per-pixel rows are entries
  256·ni + q.  After the point the y block holds the layer's y at those entries, and the accumulator block holds, at
  row p, zero plus the sum over the pixel chunks 0 … ni of the log-determinant terms of batch row 32·bi + p.
-/
import proofs.«100866_j71459665871290_2_alg».proof.Proof.Gen.KernelIdeal.Frame
import proofs.«100866_j71459665871290_2_alg».proof.Proof.KernelPieces
import proofs.«100866_j71459665871290_2_alg».proof.Proof.KernelPayload
import proofs.«100866_j71459665871290_2_alg».proof.Proof.FlowFlat
import Idealize.ShloMosaic.Lib.Pipeline.Value

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pieces Cert.KernelIdeal.Payload SineFlow
open Idealize.ShloMosaic.ValueIdx Finset

variable (m : (ℓ : Loc nD τ sig) → Buf (Elt Ideal) ℓ)

/-! ## The flat arrays the region finds -/

abbrev X2 (c : Dev nD) : SXf.Idx → EReal := V m c main_v0
abbrev A2 (c : Dev nD) : SWf.Idx → EReal := V m c main_v1
abbrev B2 (c : Dev nD) : SWf.Idx → EReal := V m c main_v2
abbrev O2 (c : Dev nD) : SWf.Idx → EReal := V m c main_v3
abbrev OB2 (c : Dev nD) : SPf.Idx → EReal := V m c main_v4
abbrev R2 (c : Dev nD) : SPf.Idx → EReal := V m c main_v5

/-! ## The index maps, decided once over the 96 grid points -/

theorem idx_x : ∀ t : Fin cfg0.N, win0_0.index t 0 = t.val / 48 ∧ win0_0.index t 1 = t.val % 48 :=
  (by decide +kernel : ∀ t : Fin grid0.N, win0_0.index t 0 = t.val / 48 ∧ win0_0.index t 1 = t.val % 48)
theorem idx_a : ∀ t : Fin cfg0.N, win0_1.index t 0 = t.val % 48 ∧ win0_1.index t 1 = 0 :=
  (by decide +kernel : ∀ t : Fin grid0.N, win0_1.index t 0 = t.val % 48 ∧ win0_1.index t 1 = 0)
theorem idx_b : ∀ t : Fin cfg0.N, win0_2.index t 0 = t.val % 48 ∧ win0_2.index t 1 = 0 :=
  (by decide +kernel : ∀ t : Fin grid0.N, win0_2.index t 0 = t.val % 48 ∧ win0_2.index t 1 = 0)
theorem idx_o : ∀ t : Fin cfg0.N, win0_3.index t 0 = t.val % 48 ∧ win0_3.index t 1 = 0 :=
  (by decide +kernel : ∀ t : Fin grid0.N, win0_3.index t 0 = t.val % 48 ∧ win0_3.index t 1 = 0)
theorem idx_bias : ∀ t : Fin cfg0.N, win0_4.index t 0 = 0 ∧ win0_4.index t 1 = t.val % 48 :=
  (by decide +kernel : ∀ t : Fin grid0.N, win0_4.index t 0 = 0 ∧ win0_4.index t 1 = t.val % 48)
theorem idx_r : ∀ t : Fin cfg0.N, win0_5.index t 0 = 0 ∧ win0_5.index t 1 = t.val % 48 :=
  (by decide +kernel : ∀ t : Fin grid0.N, win0_5.index t 0 = 0 ∧ win0_5.index t 1 = t.val % 48)
theorem idx_y : ∀ t : Fin cfg0.N, win0_6.index t 0 = t.val / 48 ∧ win0_6.index t 1 = t.val % 48 :=
  (by decide +kernel : ∀ t : Fin grid0.N, win0_6.index t 0 = t.val / 48 ∧ win0_6.index t 1 = t.val % 48)
theorem idx_acc : ∀ t : Fin cfg0.N, win0_7.index t 0 = t.val / 48 ∧ win0_7.index t 1 = 0 :=
  (by decide +kernel : ∀ t : Fin grid0.N, win0_7.index t 0 = t.val / 48 ∧ win0_7.index t 1 = 0)

/-! ## The input blocks read where the grid point says -/

theorem xBlock_apply (c : Dev nD) (t : Fin cfg0.N) (p : Fin 32) (q : Fin 256) (b : Fin 64) (n : Fin 12288)
    (hb : b.val = t.val / 48 * 32 + p.val) (hn : n.val = t.val % 48 * 256 + q.val) :
    (iblk m c 0 t : Vec Ideal S32x256 .f32) (ix2 p q) = X2 m c (ix2 b n) := by
  unfold iblk
  rw [View.read_apply]
  show V m c main_v0 _ = V m c main_v0 _
  refine congrArg (V m c main_v0) (funext fun a => Fin.ext ?_)
  match a with
  | ⟨0, _⟩ =>
    show win0_0.index t 0 * 32 + 1 * p.val = b.val
    rw [(idx_x t).1, hb]; omega
  | ⟨1, _⟩ =>
    show win0_0.index t 1 * 256 + 1 * q.val = n.val
    rw [(idx_x t).2, hn]; omega

/-- Row q of the raw-input-weight block is row 256·ni + q of the flat array. -/
theorem aBlock_apply (c : Dev nD) (t : Fin cfg0.N) (q : Fin 256) (e : Fin 128) (n : Fin 12288)
    (hn : n.val = t.val % 48 * 256 + q.val) :
    (iblk m c 1 t : Vec Ideal S256x128 .f32) (ix2 q e) = A2 m c (ix2 n e) := by
  unfold iblk
  rw [View.read_apply]
  show V m c main_v1 _ = V m c main_v1 _
  refine congrArg (V m c main_v1) (funext fun a => Fin.ext ?_)
  match a with
  | ⟨0, _⟩ =>
    show win0_1.index t 0 * 256 + 1 * q.val = n.val
    rw [(idx_a t).1, hn]; omega
  | ⟨1, _⟩ =>
    show win0_1.index t 1 * 128 + 1 * e.val = e.val
    rw [(idx_a t).2]; omega

/-- The same for the input biases. -/
theorem bBlock_apply (c : Dev nD) (t : Fin cfg0.N) (q : Fin 256) (e : Fin 128) (n : Fin 12288)
    (hn : n.val = t.val % 48 * 256 + q.val) :
    (iblk m c 2 t : Vec Ideal S256x128 .f32) (ix2 q e) = B2 m c (ix2 n e) := by
  unfold iblk
  rw [View.read_apply]
  show V m c main_v2 _ = V m c main_v2 _
  refine congrArg (V m c main_v2) (funext fun a => Fin.ext ?_)
  match a with
  | ⟨0, _⟩ =>
    show win0_2.index t 0 * 256 + 1 * q.val = n.val
    rw [(idx_b t).1, hn]; omega
  | ⟨1, _⟩ =>
    show win0_2.index t 1 * 128 + 1 * e.val = e.val
    rw [(idx_b t).2]; omega

/-- The same for the raw mixing weights. -/
theorem oBlock_apply (c : Dev nD) (t : Fin cfg0.N) (q : Fin 256) (e : Fin 128) (n : Fin 12288)
    (hn : n.val = t.val % 48 * 256 + q.val) :
    (iblk m c 3 t : Vec Ideal S256x128 .f32) (ix2 q e) = O2 m c (ix2 n e) := by
  unfold iblk
  rw [View.read_apply]
  show V m c main_v3 _ = V m c main_v3 _
  refine congrArg (V m c main_v3) (funext fun a => Fin.ext ?_)
  match a with
  | ⟨0, _⟩ =>
    show win0_3.index t 0 * 256 + 1 * q.val = n.val
    rw [(idx_o t).1, hn]; omega
  | ⟨1, _⟩ =>
    show win0_3.index t 1 * 128 + 1 * e.val = e.val
    rw [(idx_o t).2]; omega

/-- Entry q of the output-bias row is entry 256·ni + q of the flat row. -/
theorem biasBlock_apply (c : Dev nD) (t : Fin cfg0.N) (u : Fin 1) (q : Fin 256) (n : Fin 12288)
    (hn : n.val = t.val % 48 * 256 + q.val) :
    (iblk m c 4 t : Vec Ideal S1x256 .f32) (ix2 u q) = OB2 m c (ix2 (0 : Fin 1) n) := by
  unfold iblk
  rw [View.read_apply]
  show V m c main_v4 _ = V m c main_v4 _
  refine congrArg (V m c main_v4) (funext fun a => Fin.ext ?_)
  match a with
  | ⟨0, _⟩ =>
    show win0_4.index t 0 * 1 + 1 * u.val = 0
    rw [(idx_bias t).1]; omega
  | ⟨1, _⟩ =>
    show win0_4.index t 1 * 256 + 1 * q.val = n.val
    rw [(idx_bias t).2, hn]; omega

/-- The same for the raw residual weights. -/
theorem rBlock_apply (c : Dev nD) (t : Fin cfg0.N) (u : Fin 1) (q : Fin 256) (n : Fin 12288)
    (hn : n.val = t.val % 48 * 256 + q.val) :
    (iblk m c 5 t : Vec Ideal S1x256 .f32) (ix2 u q) = R2 m c (ix2 (0 : Fin 1) n) := by
  unfold iblk
  rw [View.read_apply]
  show V m c main_v5 _ = V m c main_v5 _
  refine congrArg (V m c main_v5) (funext fun a => Fin.ext ?_)
  match a with
  | ⟨0, _⟩ =>
    show win0_5.index t 0 * 1 + 1 * u.val = 0
    rw [(idx_r t).1]; omega
  | ⟨1, _⟩ =>
    show win0_5.index t 1 * 256 + 1 * q.val = n.val
    rw [(idx_r t).2, hn]; omega

/-! ## The two output blocks after a grid point -/

/-- The pixel and the batch row a block entry stands for lie inside the arrays. -/
theorem row_lt (t : Fin cfg0.N) (p : Fin 32) : t.val / 48 * 32 + p.val < 64 := by
  have hN : t.val < 96 := lt_of_lt_of_eq t.isLt (show cfg0.N = 96 from N_0)
  have := p.isLt
  omega
theorem pix_lt (t : Fin cfg0.N) (q : Fin 256) : t.val % 48 * 256 + q.val < 12288 := by
  have := q.isLt
  have : t.val % 48 < 48 := Nat.mod_lt _ (by norm_num)
  omega

/-- The y block after point t is the y payload of the point's input blocks. -/
theorem yOut_eq (c : Dev nD) (t : Fin cfg0.N) : (outsAt0 m c t.val t.isLt).1 = k0_pay15 (k0_pay3 (iblk m c 0 t)) (k0_pay4 (iblk m c 2 t)) (k0_pay5 (iblk m c 3 t)) (k0_pay6 (iblk m c 4 t)) (k0_pay7 (iblk m c 5 t)) (k0_pay8 (iblk m c 1 t)) (k0_pay9 (iblk m c 1 t)) (k0_pay10 (iblk m c 3 t)) := by
  by_cases h0 : t.val % 48 = 0
  · rw [outsAt0_A m c t h0]
    dsimp only
    exact yBlock_start (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t)
  · rw [outsAt0_B m c t h0]
    dsimp only
    exact yBlock_cont (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) _

/-- At a point that starts a tile the accumulator block is the zero block plus the lane sums. -/
theorem accOut_start (c : Dev nD) (t : Fin cfg0.N) (h0 : t.val % 48 = 0) :
    (outsAt0 m c t.val t.isLt).2 = k0_pay1 (k0_pay16 (k0_pay3 (iblk m c 0 t)) (k0_pay4 (iblk m c 2 t)) (k0_pay5 (iblk m c 3 t)) (k0_pay7 (iblk m c 5 t)) (k0_pay8 (iblk m c 1 t)) (k0_pay10 (iblk m c 3 t))) (k0_pay2 (F := Ideal)) := by
  rw [outsAt0_A m c t h0]
  exact accBlock_start (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t)

/-- At every other point it is what the point before left plus the lane sums. -/
theorem accOut_cont (c : Dev nD) (t : Fin cfg0.N) (h0 : ¬t.val % 48 = 0) (hp : t.val - 1 < cfg0.N) :
    (outsAt0 m c t.val t.isLt).2 = k0_pay1 (k0_pay16 (k0_pay3 (iblk m c 0 t)) (k0_pay4 (iblk m c 2 t)) (k0_pay5 (iblk m c 3 t)) (k0_pay7 (iblk m c 5 t)) (k0_pay8 (iblk m c 1 t)) (k0_pay10 (iblk m c 3 t))) (outsAt0 m c (t.val - 1) hp).2 := by
  rw [outsAt0_B m c t h0]
  exact accBlock_cont (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) _

/-! ## The values at one entry -/

theorem ySplit_congr {x x' : EReal} {a a' β β' o o' : Fin 128 → EReal} {bias bias' r r' : EReal}
    (hx : x = x') (ha : a = a') (hβ : β = β') (ho : o = o') (hbias : bias = bias') (hr : r = r') :
    ySplit x a β o bias r = ySplit x' a' β' o' bias' r' := by
  subst hx ha hβ ho hbias hr; rfl

theorem ldTerm_congr {x x' : EReal} {a a' β β' o o' : Fin 128 → EReal} {r r' : EReal}
    (hx : x = x') (ha : a = a') (hβ : β = β') (ho : o = o') (hr : r = r') :
    ldTerm x a β o r = ldTerm x' a' β' o' r' := by
  subst hx ha hβ ho hr; rfl

/-- The y block after point t holds, at (p, q), the layer's y at batch row 32·bi + p, pixel 256·ni + q. -/
theorem yPoint (c : Dev nD) (t : Fin cfg0.N) (p : Fin 32) (q : Fin 256) (b : Fin 64) (n : Fin 12288)
    (hb : b.val = t.val / 48 * 32 + p.val) (hn : n.val = t.val % 48 * 256 + q.val) :
    (outsAt0 m c t.val t.isLt).1 (ix2 p q) = yFlatAt (X2 m c) (A2 m c) (B2 m c) (O2 m c) (OB2 m c) (R2 m c) b n := by
  rw [yOut_eq]
  refine (y_apply (iblk m c 0 t) (iblk m c 1 t) (iblk m c 2 t) (iblk m c 3 t) (iblk m c 4 t) (iblk m c 5 t) p q).trans ?_
  unfold yFlatAt
  exact ySplit_congr (xBlock_apply m c t p q b n hb hn) (funext fun e => aBlock_apply m c t q e n hn)
    (funext fun e => bBlock_apply m c t q e n hn) (funext fun e => oBlock_apply m c t q e n hn)
    (biasBlock_apply m c t 0 q n hn) (rBlock_apply m c t 0 q n hn)

/-- The value whose lane sums point t accumulates, at (p, q): the pixel's term, read on the naturals. -/
theorem termPoint (c : Dev nD) (t : Fin cfg0.N) (p : Fin 32) (q : Fin 256) :
    k0_pay16 (k0_pay3 (iblk m c 0 t)) (k0_pay4 (iblk m c 2 t)) (k0_pay5 (iblk m c 3 t)) (k0_pay7 (iblk m c 5 t)) (k0_pay8 (iblk m c 1 t)) (k0_pay10 (iblk m c 3 t)) (ix2 p q)
      = termNat (X2 m c) (A2 m c) (B2 m c) (O2 m c) (R2 m c) (t.val / 48 * 32 + p.val) (t.val % 48 * 256 + q.val) := by
  refine ((term_apply (iblk m c 0 t) (iblk m c 1 t) (iblk m c 2 t) (iblk m c 3 t) (iblk m c 5 t) p q).trans ?_).trans
    (termNat_val (X2 m c) (A2 m c) (B2 m c) (O2 m c) (R2 m c) ⟨_, row_lt t p⟩ ⟨_, pix_lt t q⟩).symm
  unfold termFlatAt
  exact ldTerm_congr (xBlock_apply m c t p q ⟨_, row_lt t p⟩ ⟨_, pix_lt t q⟩ rfl rfl)
    (funext fun e => aBlock_apply m c t q e ⟨_, pix_lt t q⟩ rfl) (funext fun e => bBlock_apply m c t q e ⟨_, pix_lt t q⟩ rfl)
    (funext fun e => oBlock_apply m c t q e ⟨_, pix_lt t q⟩ rfl) (rBlock_apply m c t 0 q ⟨_, pix_lt t q⟩ rfl)

/-- The zero block reads the zero word. -/
theorem zeroBlock_apply (p : Fin 32) (u : Fin 1) : k0_pay2 (F := Ideal) (ix2 p u) = w0 := rfl

/-- THE RUNNING SUM.  After point n = 48·bi + ni the accumulator holds at row p: zero plus the chunk sums 0 … ni of the
    terms of batch row 32·bi + p — by induction on the point: a tile's first point resets, every other point adds. -/
theorem acc_closed (c : Dev nD) : ∀ (n : ℕ) (h : n < cfg0.N) (p : Fin 32) (u : Fin 1),
    (outsAt0 m c n h).2 (ix2 p u)
      = w0 + ∑ j ∈ range (n % 48 + 1), ∑ q : Fin 256, termNat (X2 m c) (A2 m c) (B2 m c) (O2 m c) (R2 m c) (n / 48 * 32 + p.val) (j * 256 + q.val)
  | 0, h, p, u => by
    rw [show (outsAt0 m c 0 h).2 = _ from accOut_start m c ⟨0, h⟩ rfl]
    refine (acc_apply _ _ p u).trans ?_
    rw [zeroBlock_apply, show (0 : ℕ) % 48 + 1 = 1 from rfl, Finset.sum_range_one]
    exact congrArg (w0 + ·) (Finset.sum_congr rfl fun q _ => termPoint m c ⟨0, h⟩ p q)
  | k + 1, h, p, u => by
    by_cases h0 : (k + 1) % 48 = 0
    · rw [show (outsAt0 m c (k + 1) h).2 = _ from accOut_start m c ⟨k + 1, h⟩ h0]
      refine (acc_apply _ _ p u).trans ?_
      rw [zeroBlock_apply, h0, show (0 : ℕ) + 1 = 1 from rfl, Finset.sum_range_one]
      refine congrArg (w0 + ·) (Finset.sum_congr rfl fun q _ => ?_)
      refine (termPoint m c ⟨k + 1, h⟩ p q).trans ?_
      show termNat _ _ _ _ _ ((k + 1) / 48 * 32 + p.val) ((k + 1) % 48 * 256 + q.val) = _
      rw [h0]
    · have hk : k < cfg0.N := Nat.lt_of_succ_lt h
      rw [show (outsAt0 m c (k + 1) h).2 = _ from accOut_cont m c ⟨k + 1, h⟩ h0 hk]
      refine (acc_apply _ _ p u).trans ?_
      rw [show (outsAt0 m c ((⟨k + 1, h⟩ : Fin cfg0.N).val - 1) hk).2 (ix2 p u) = (outsAt0 m c k hk).2 (ix2 p u) from rfl,
        acc_closed c k hk p u]
      have e1 : (k + 1) / 48 = k / 48 := by omega
      have e2 : (k + 1) % 48 = k % 48 + 1 := by omega
      rw [e1, e2, Finset.sum_range_succ _ (k % 48 + 1), add_assoc]
      refine congrArg (w0 + ·) (congrArg (_ + ·) (Finset.sum_congr rfl fun q _ => ?_))
      refine (termPoint m c ⟨k + 1, h⟩ p q).trans ?_
      show termNat _ _ _ _ _ ((k + 1) / 48 * 32 + p.val) ((k + 1) % 48 * 256 + q.val) = _
      rw [e1, e2]

/-- At a tile's last point (ni = 47) the accumulator holds the whole row's log-determinant: the sum of its 12288 terms. -/
theorem acc_last (c : Dev nD) (t : Fin cfg0.N) (h47 : t.val % 48 = 47) (p : Fin 32) (u : Fin 1) (b : Fin 64)
    (hb : b.val = t.val / 48 * 32 + p.val) :
    (outsAt0 m c t.val t.isLt).2 (ix2 p u) = ∑ n : Fin 12288, termFlatAt (X2 m c) (A2 m c) (B2 m c) (O2 m c) (R2 m c) b n := by
  rw [acc_closed m c t.val t.isLt p u, h47, ← hb,
    sum_chunks_48 (termNat (X2 m c) (A2 m c) (B2 m c) (O2 m c) (R2 m c) b.val), show w0 = (0 : EReal) from Ideal.ofBits_zero_f32, zero_add]
  exact Finset.sum_congr rfl fun n _ => termNat_val _ _ _ _ _ b n

end Cert.KernelIdeal.Blocks

end
-- ==== Proof.KernelRun.lean ====
/-
  The kernel's two result arrays after its run.

  Every grid point writes its y block back, and the 96 blocks tile the [64, 12288] array, so the array ends holding
  the layer's y at every (b, n).  The accumulator block is written back at a tile's last point only (ni = 47), when it
  holds the full sum over the row's 12288 pixels, and the two tiles' blocks tile the [64, 1] array.  The program then
  reshapes both arrays; before the region it reshaped the six arguments to the flat layout.
-/
import proofs.«100866_j71459665871290_2_alg».proof.Proof.KernelBlocks
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Blocks SineFlow
open Idealize.ShloMosaic.ValueIdx Finset

variable (m : (ℓ : Loc nD τ sig) → Buf (Elt Ideal) ℓ) (ρ : Dev nD → PrngReg)

/-- The flat y array: the layer's y at every (b, n). -/
def yFlat (c : Dev nD) : S64x12288.Idx → EReal := fun i => yFlatAt (X2 m c) (A2 m c) (B2 m c) (O2 m c) (OB2 m c) (R2 m c) (i 0) (i 1)

/-- The flat log-determinant column: the sum of the row's 12288 terms at every (b, 0). -/
def ldFlat (c : Dev nD) : S64x1.Idx → EReal := fun i => ∑ n : Fin 12288, termFlatAt (X2 m c) (A2 m c) (B2 m c) (O2 m c) (R2 m c) (i 0) n

/-! ## What the flushing points write back -/

/-- Point t writes back block t of the flat y array. -/
theorem flushed_y (c : Dev nD) (t : Fin cfg0.N) :
    (dats m 0 c).flushed 6 t = ((cfg0.win 6).blk t).view.read (Elt Ideal) (yFlat m c) := by
  show (cfg0.win 6).cut (grid0.coords t) ((dats m 0 c).after 6 t) = _
  rw [after0_6]
  funext j
  obtain ⟨p, q, rfl⟩ : ∃ (p : Fin 32) (q : Fin 256), j = ix2 p q := ⟨j 0, j 1, eq_ix2 j⟩
  show (outsAt0 m c t.val t.isLt).1 (ix2 p q) = yFlat m c (((cfg0.win 6).blk t).view.emb (ix2 p q))
  refine yPoint m c t p q ((((cfg0.win 6).blk t).view.emb (ix2 p q)) 0) ((((cfg0.win 6).blk t).view.emb (ix2 p q)) 1) ?_ ?_
  · show win0_6.index t 0 * 32 + 1 * p.val = _
    rw [(idx_y t).1]; omega
  · show win0_6.index t 1 * 256 + 1 * q.val = _
    rw [(idx_y t).2]; omega

/-- A tile's last point writes back its block of the flat log-determinant column. -/
theorem flushed_ld (c : Dev nD) (t : Fin cfg0.N) (hf : (cfg0.win 7).flush t = true) :
    (dats m 0 c).flushed 7 t = ((cfg0.win 7).blk t).view.read (Elt Ideal) (ldFlat m c) := by
  have h47 : t.val % 48 = 47 := (flush0_7 t).mp hf
  show (cfg0.win 7).cut (grid0.coords t) ((dats m 0 c).after 7 t) = _
  rw [after0_7]
  funext j
  obtain ⟨p, u, rfl⟩ : ∃ (p : Fin 32) (u : Fin 1), j = ix2 p u := ⟨j 0, j 1, eq_ix2 j⟩
  show (outsAt0 m c t.val t.isLt).2 (ix2 p u) = ldFlat m c (((cfg0.win 7).blk t).view.emb (ix2 p u))
  refine acc_last m c t h47 p u ((((cfg0.win 7).blk t).view.emb (ix2 p u)) 0) ?_
  show win0_7.index t 0 * 32 + 1 * p.val = _
  rw [(idx_acc t).1]; omega

/-! ## The blocks tile the arrays -/

theorem mem_blk_y (t : Fin cfg0.N) (i : S64x12288.Idx) :
    i ∈ ((cfg0.win 6).blk t).view.set ↔ ∀ a : Fin 2, win0_6.index t a * S32x256.size a ≤ (i a).val ∧ (i a).val < win0_6.index t a * S32x256.size a + S32x256.size a := by
  show i ∈ ((View.whole main_v6_0).slice (win0_6.rect t)).set ↔ _
  rw [View.set_slice_whole, Rect.mem_set_unit]
  exact Iff.rfl

theorem mem_blk_ld (t : Fin cfg0.N) (i : S64x1.Idx) :
    i ∈ ((cfg0.win 7).blk t).view.set ↔ ∀ a : Fin 2, win0_7.index t a * S32x1.size a ≤ (i a).val ∧ (i a).val < win0_7.index t a * S32x1.size a + S32x1.size a := by
  show i ∈ ((View.whole main_v6_1).slice (win0_7.rect t)).set ↔ _
  rw [View.set_slice_whole, Rect.mem_set_unit]
  exact Iff.rfl

/-- Entry (b, n) lies in the block of the point (b / 32, n / 256). -/
theorem cover_y (i : S64x12288.Idx) :
    ∃ t : Fin cfg0.N, (cfg0.win 6).flush t = true ∧ i ∈ ((cfg0.win 6).blk t).view.set := by
  have h0 : (i 0).val < 64 := (i 0).isLt
  have h1 : (i 1).val < 12288 := (i 1).isLt
  have hN : cfg0.N = 96 := N_0
  refine ⟨⟨(i 0).val / 32 * 48 + (i 1).val / 256, by rw [hN]; omega⟩, flush0_6 _, ?_⟩
  rw [mem_blk_y]
  intro a
  match a with
  | ⟨0, _⟩ =>
    show win0_6.index _ 0 * 32 ≤ (i 0).val ∧ (i 0).val < win0_6.index _ 0 * 32 + 32
    rw [(idx_y _).1]
    show ((i 0).val / 32 * 48 + (i 1).val / 256) / 48 * 32 ≤ (i 0).val ∧ (i 0).val < ((i 0).val / 32 * 48 + (i 1).val / 256) / 48 * 32 + 32
    omega
  | ⟨1, _⟩ =>
    show win0_6.index _ 1 * 256 ≤ (i 1).val ∧ (i 1).val < win0_6.index _ 1 * 256 + 256
    rw [(idx_y _).2]
    show ((i 0).val / 32 * 48 + (i 1).val / 256) % 48 * 256 ≤ (i 1).val ∧ (i 1).val < ((i 0).val / 32 * 48 + (i 1).val / 256) % 48 * 256 + 256
    omega

/-- Entry (b, 0) lies in the block written back at the last point of tile b / 32. -/
theorem cover_ld (i : S64x1.Idx) :
    ∃ t : Fin cfg0.N, (cfg0.win 7).flush t = true ∧ i ∈ ((cfg0.win 7).blk t).view.set := by
  have h0 : (i 0).val < 64 := (i 0).isLt
  have h1 : (i 1).val < 1 := (i 1).isLt
  have hN : cfg0.N = 96 := N_0
  refine ⟨⟨(i 0).val / 32 * 48 + 47, by rw [hN]; omega⟩, (flush0_7 _).mpr (by show ((i 0).val / 32 * 48 + 47) % 48 = 47; omega), ?_⟩
  rw [mem_blk_ld]
  intro a
  match a with
  | ⟨0, _⟩ =>
    show win0_7.index _ 0 * 32 ≤ (i 0).val ∧ (i 0).val < win0_7.index _ 0 * 32 + 32
    rw [(idx_acc _).1]
    show ((i 0).val / 32 * 48 + 47) / 48 * 32 ≤ (i 0).val ∧ (i 0).val < ((i 0).val / 32 * 48 + 47) / 48 * 32 + 32
    omega
  | ⟨1, _⟩ =>
    show win0_7.index _ 1 * 1 ≤ (i 1).val ∧ (i 1).val < win0_7.index _ 1 * 1 + 1
    rw [(idx_acc _).2]
    omega

/-! ## The two arrays after the region -/

theorem final_y (c : Dev nD) : (dats m 0 c).arrAt 6 cfg0.N = yFlat m c :=
  (dats m 0 c).arrAt_eq_of_cover 6 (yFlat m c) (fun t _ => flushed_y m c t) cover_y

theorem final_ld (c : Dev nD) : (dats m 0 c).arrAt 7 cfg0.N = ldFlat m c :=
  (dats m 0 c).arrAt_eq_of_cover 7 (ldFlat m c) (fun t hf => flushed_ld m c t hf) cover_ld

/-! ## The reshapes before the region: the flat arrays are the arguments re-laid -/

theorem X2_eq (c : Dev nD) : V m c main_v0 = shapeCast S64x12288 (m ((c : Thread nD τ).loc main_arg0)) shapeCasts_S64x3x64x64_S64x12288 := by
  show StableHlo.after hostOps0 (fun b => m (c, b)) (Proc.devRef .tc main_v0) = _
  after_results
  rfl

theorem A2_eq (c : Dev nD) : V m c main_v1 = shapeCast S12288x128 (m ((c : Thread nD τ).loc main_arg1)) shapeCasts_S3x64x64x128_S12288x128 := by
  show StableHlo.after hostOps0 (fun b => m (c, b)) (Proc.devRef .tc main_v1) = _
  after_results
  rfl

theorem B2_eq (c : Dev nD) : V m c main_v2 = shapeCast S12288x128 (m ((c : Thread nD τ).loc main_arg2)) shapeCasts_S3x64x64x128_S12288x128 := by
  show StableHlo.after hostOps0 (fun b => m (c, b)) (Proc.devRef .tc main_v2) = _
  after_results
  rfl

theorem O2_eq (c : Dev nD) : V m c main_v3 = shapeCast S12288x128 (m ((c : Thread nD τ).loc main_arg3)) shapeCasts_S3x64x64x128_S12288x128 := by
  show StableHlo.after hostOps0 (fun b => m (c, b)) (Proc.devRef .tc main_v3) = _
  after_results
  rfl

theorem OB2_eq (c : Dev nD) : V m c main_v4 = shapeCast S1x12288 (m ((c : Thread nD τ).loc main_arg4)) shapeCasts_S3x64x64_S1x12288 := by
  show StableHlo.after hostOps0 (fun b => m (c, b)) (Proc.devRef .tc main_v4) = _
  after_results
  rfl

theorem R2_eq (c : Dev nD) : V m c main_v5 = shapeCast S1x12288 (m ((c : Thread nD τ).loc main_arg5)) shapeCasts_S3x64x64_S1x12288 := by
  show StableHlo.after hostOps0 (fun b => m (c, b)) (Proc.devRef .tc main_v5) = _
  after_results
  rfl

/-! ## The reshapes after the region -/

/-- The first result is the flat y array viewed as [64, 3, 64, 64]. -/
theorem tail_y (c : Dev nD) :
    Pipeline.afterTail₀ cfgs (dats m) 0 (V0 m) [hostOps1] c main_v7
      = shapeCast S64x3x64x64 (yFlat m c) shapeCasts_S64x12288_S64x3x64x64 := by
  have e := (Pipeline.withArrays_arr spec0 launch0.win.arr_inj c (V0 m c) (fun w => (dats m 0 c).arrAt w (cfgs 0).N) 6).trans (final_y m c)
  unfold Pipeline.afterTail₀
  show StableHlo.after hostOps1 _ (Proc.devRef .tc main_v7) = _
  after_results
  exact congrArg (fun v => shapeCast S64x3x64x64 v shapeCasts_S64x12288_S64x3x64x64) e

/-- The second result is the flat log-determinant column viewed as [64]. -/
theorem tail_ld (c : Dev nD) :
    Pipeline.afterTail₀ cfgs (dats m) 0 (V0 m) [hostOps1] c main_v8
      = shapeCast S64 (ldFlat m c) shapeCasts_S64x1_S64 := by
  have e := (Pipeline.withArrays_arr spec0 launch0.win.arr_inj c (V0 m c) (fun w => (dats m 0 c).arrAt w (cfgs 0).N) 7).trans (final_ld m c)
  unfold Pipeline.afterTail₀
  show StableHlo.after hostOps1 _ (Proc.devRef .tc main_v8) = _
  after_results
  exact congrArg (fun v => shapeCast S64 v shapeCasts_S64x1_S64) e

/-! ## The run, read -/

/-- Every weakly fair execution of the program terminates with the two results at the reshaped flat arrays and the six
    arguments unchanged. -/
theorem run : θ_run defs (onTc (τ := τ) (main (F := Ideal))) ⟨m, fun _ => 0, ρ⟩ fun r => ∀ c : Dev nD,
      r.2.mem ((c : Thread nD τ).loc main_v7) = shapeCast S64x3x64x64 (yFlat m c) shapeCasts_S64x12288_S64x3x64x64
      ∧ r.2.mem ((c : Thread nD τ).loc main_v8) = shapeCast S64 (ldFlat m c) shapeCasts_S64x1_S64
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨
      ((h c).2 main_v7 (Pipeline.mem_restRefs_of main_v7 (by decide) (by decide))).trans (tail_y m c),
      ((h c).2 main_v8 (Pipeline.mem_restRefs_of main_v8 (by decide) (by decide))).trans (tail_ld m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Result

end
-- ==== Proof.LibLastAxis4.lean ====
/-
  The host's maximum over the last axis of a four-dimensional array, row by row, on the extended reals.

  At row (p, q, r) of an [a, b, c, d] array the host's reduce-maximum over the last axis is the fold of `max` over
  the row's d entries, started from the initial value.
-/
import Idealize.ShloMosaic.PureOps.Ideal.Laws
import Idealize.ShloMosaic.Lib.Pipeline.Value
import Idealize.ShloMosaic.Lib.ValueIdx
import proofs.«100866_j71459665871290_2_alg».proof.Proof.LibRowReduce

noncomputable section

namespace LastAxis4

open Idealize.ShloMosaic Idealize.ShloMosaic.ValueIdx RowReduce

/-- Row index (p, q, r) with coordinate `k` put back on the last axis is (p, q, r, k). -/
theorem lift_last4 {a b c d : Nat} (h : (⟨4, ![a, b, c, d]⟩ : Shape).Reduces [3] (⟨3, ![a, b, c]⟩ : Shape))
    (p : Fin a) (q : Fin b) (r : Fin c) (k : Fin ((⟨4, ![a, b, c, d]⟩ : Shape).size 3)) :
    h.lift (ix3 p q r) k = ix4 p q r (⟨k.val, k.isLt⟩ : Fin d) := by
  funext e; apply Fin.ext
  fin_cases e <;> rfl

/-- The maximum over the last axis of a four-dimensional array, at row (p, q, r): the fold of `max` over the
    row's entries from the initial value. -/
theorem hostReduce_max_row4 {a b c d : Nat} {φ : FTy} {u : Shape} (x : FVec Ideal ⟨4, ![a, b, c, d]⟩ φ)
    (init : u.Idx → Ideal φ) (h' : (⟨4, ![a, b, c, d]⟩ : Shape).ReducesTo [3] (⟨3, ![a, b, c]⟩ : Shape))
    (h : (⟨4, ![a, b, c, d]⟩ : Shape).Reduces [3] (⟨3, ![a, b, c]⟩ : Shape)) (hu : 0 < u.numel)
    (p : Fin a) (q : Fin b) (r : Fin c) :
    Host.reduce FloatOps.maximumf x init h' hu (ix3 p q r)
      = foldMax (init (Shape.Idx.first hu)) fun k : Fin d => x (ix4 p q r k) := by
  refine (Host.reduce_eq_fold_single FloatOps.maximumf x init h' h hu (ix3 p q r)).trans ?_
  have hf : (x ∘ h.lift (ix3 p q r)) = fun k : Fin d => x (ix4 p q r k) :=
    funext fun k => congrArg x (lift_last4 h p q r k)
  unfold foldMax
  exact congrArg (fun f => Finset.fold max (init (Shape.Idx.first hu)) f (Finset.univ : Finset (Fin d))) hf

end LastAxis4

end
-- ==== Proof.RefIsSpec.lean ====
/-
  The reference program computes the specification.

  Read one operation at a time at explicit coordinates, the reference's two results are the arrays of FlowSpec:

    · its first stage is softplus of the raw input weights, entry by entry (the branch taken when a number
      differs from itself is never taken on the extended reals);
    · the row maximum of the raw mixing weights, exp (oₑ − max o), its row sum and the quotient give the
      softmax π of row (c, h, w);
    · at (b, c, h, w, e): uₑ = softplus aₑ · x + βₑ, the summand πₑ · (sin 2βₑ − sin 2uₑ) / (2 · softplus aₑ),
      and its sum over e, started from the zero word, is the inner sum in the reference's spelling;
    · y = x + tanh r · (inner sum) + bias, which is `yArr`;
    · the pixel term log (1 + (−tanh r) · Σₑ πₑ · cos 2uₑ), and its sum over the three pixel axes of batch
      row b — the indices that drop to b are exactly (b, c, h, w) — which is `ldArr`.
-/
import proofs.«100866_j71459665871290_2_alg».proof.Proof.Gen.ReferenceIdeal.Read
import proofs.«100866_j71459665871290_2_alg».proof.Proof.FlowSpec
import proofs.«100866_j71459665871290_2_alg».proof.Proof.LibRowReduce
import proofs.«100866_j71459665871290_2_alg».proof.Proof.LibLastAxis4
import Idealize.ShloMosaic.Lib.ValueIdx
import Idealize.ShloMosaic.PureOps.Ideal.Laws

noncomputable section

namespace Cert.ReferenceIdeal.RefSpec

open Cert.ReferenceIdeal Cert.ReferenceIdeal.Gen Idealize.ShloMosaic Idealize.ShloMosaic.ValueIdx RowReduce LastAxis4 SineFlow

/-- The three kinds of argument array over the extended reals: the input [64, 3, 64, 64], a weight array
    [3, 64, 64, 128], a per-pixel parameter array [3, 64, 64]. -/
abbrev AX := (⟨S64x3x64x64, .f32⟩ : BufTy).Contents (Elt Ideal)
abbrev AW := (⟨S3x64x64x128, .f32⟩ : BufTy).Contents (Elt Ideal)
abbrev AP := (⟨S3x64x64, .f32⟩ : BufTy).Contents (Elt Ideal)

/-! ## softplus -/

/-- An extended real is never different from itself, so the comparison "x ≠ x" is the false bit. -/
theorem cmp_une_self (d : EReal) : FloatOps.cmpf (F := Ideal) (φ := .f32) .une d d = 0#1 := by
  show Ideal.cmp .une d d = 0#1
  simp [Ideal.cmp]

/-- The first stage is softplus, entry by entry. -/
theorem softplus_at (x1 : AW) (i : S3x64x64x128.Idx) :
    Read.val_main_v0 (F := Ideal) x1 i = SineFlow.softplus (x1 i) := by
  rw [Read.val_main_v0_apply, Read.val_main_call0_v4_apply, cmp_une_self, select_zero,
    Read.val_main_call0_v11_apply, Read.val_main_call0_v1_apply, Read.val_main_call0_v10_apply,
    Read.val_main_call0_v9_apply, Read.val_main_call0_v8_apply, Read.val_main_call0_v7_apply,
    Read.val_main_call0_v3_apply, Read.val_main_call0_v0_apply, Read.val_main_call0_v2_apply,
    Read.val_main_call0_cst_apply]
  rfl

/-! ## The row maximum -/

/-- The largest entry of row (c, h, w) of the mixing weights, taken once more against −∞. -/
theorem rowMax_at (x3 : AW) (c : Fin 3) (h w : Fin 64) :
    Read.val_main_v3 (F := Ideal) x3 (ix3 c h w) = SineFlow.rowMax (rowOf x3 c h w) := by
  rw [Read.val_main_v3_apply, Read.val_main_v2_apply, Read.val_main_cst_0_apply]
  unfold Read.val_main_v1
  rw [hostReduce_max_row4 x3 _ reducesTo_S3x64x64x128_S3x64x64_d3 (by decide) h_S_ c h w, Read.val_main_cst_apply]
  rfl

/-! ## The softmax of a row of mixing weights -/

/-- The row statistic kept as a column and broadcast back: entry (c, h, w, e) reads row (c, h, w). -/
theorem idx_4_5 (c : Fin 3) (h w : Fin 64) (e : Fin 128) :
    Read.idx_main_v4 (Read.idx_main_v5 (ix4 c h w e)) = ix3 c h w :=
  funext fun a => Fin.ext (by match a with | ⟨0, _⟩ => rfl | ⟨1, _⟩ => rfl | ⟨2, _⟩ => rfl)
theorem idx_9_10 (c : Fin 3) (h w : Fin 64) (e : Fin 128) :
    Read.idx_main_v9 (Read.idx_main_v10 (ix4 c h w e)) = ix3 c h w :=
  funext fun a => Fin.ext (by match a with | ⟨0, _⟩ => rfl | ⟨1, _⟩ => rfl | ⟨2, _⟩ => rfl)
/-- Row (c, h, w) with coordinate k on the summed axis is entry (c, h, w, k). -/
theorem idx_8 (c : Fin 3) (h w : Fin 64) (k : Fin 128) :
    Read.idx_main_v8 (ix3 c h w) k = ix4 c h w k :=
  funext fun a => Fin.ext (by match a with | ⟨0, _⟩ => rfl | ⟨1, _⟩ => rfl | ⟨2, _⟩ => rfl | ⟨3, _⟩ => rfl)

/-- exp (oₑ − max o) at entry (c, h, w, e). -/
theorem expRow_at (x3 : AW) (c : Fin 3) (h w : Fin 64) (e : Fin 128) :
    Read.val_main_v7 (F := Ideal) x3 (ix4 c h w e) = SineFlow.expRow (rowOf x3 c h w) e := by
  rw [Read.val_main_v7_apply, Read.val_main_v6_apply, Read.val_main_v5_apply, Read.val_main_v4_apply, idx_4_5,
    rowMax_at]
  rfl

/-- The zero word is the extended real 0, so a sum started from it is the sum. -/
theorem zeroWord_add (y : EReal) : FloatOps.ofBits (F := Ideal) .f32 0x00000000#32 + y = y := by
  show Ideal.ofBits .f32 0x00000000#32 + y = y
  rw [Ideal.ofBits_zero_f32, zero_add]

/-- Σₖ exp (oₖ − max o) at row (c, h, w). -/
theorem sumExp_at (x3 : AW) (c : Fin 3) (h w : Fin 64) :
    Read.val_main_v8 (F := Ideal) x3 (ix3 c h w) = ∑ k : Fin 128, SineFlow.expRow (rowOf x3 c h w) k := by
  rw [Read.val_main_v8_apply, Read.val_main_cst_1_apply, zeroWord_add]
  exact Finset.sum_congr rfl fun k _ => by rw [idx_8, expRow_at]

/-- πₑ at entry (c, h, w, e). -/
theorem mix_at (x3 : AW) (c : Fin 3) (h w : Fin 64) (e : Fin 128) :
    Read.val_main_v11 (F := Ideal) x3 (ix4 c h w e) = SineFlow.mix (rowOf x3 c h w) e := by
  rw [Read.val_main_v11_apply, Read.val_main_v10_apply, Read.val_main_v9_apply, idx_9_10, sumExp_at, expRow_at]
  rfl

/-! ## Reading the broadcasts: which entry of an operand a result entry reads -/

/-- A [3, 64, 64, 128] array seen from (b, c, h, w, e) is read at (c, h, w, e). -/
theorem idx_14_15 (b : Fin 64) (c : Fin 3) (h w : Fin 64) (e : Fin 128) :
    Read.idx_main_v14 (Read.idx_main_v15 (ix5 b c h w e)) = ix4 c h w e :=
  funext fun a => Fin.ext (by match a with | ⟨0, _⟩ => rfl | ⟨1, _⟩ => rfl | ⟨2, _⟩ => rfl | ⟨3, _⟩ => rfl)
theorem idx_18_19 (b : Fin 64) (c : Fin 3) (h w : Fin 64) (e : Fin 128) :
    Read.idx_main_v18 (Read.idx_main_v19 (ix5 b c h w e)) = ix4 c h w e :=
  funext fun a => Fin.ext (by match a with | ⟨0, _⟩ => rfl | ⟨1, _⟩ => rfl | ⟨2, _⟩ => rfl | ⟨3, _⟩ => rfl)
theorem idx_27_28 (b : Fin 64) (c : Fin 3) (h w : Fin 64) (e : Fin 128) :
    Read.idx_main_v27 (Read.idx_main_v28 (ix5 b c h w e)) = ix4 c h w e :=
  funext fun a => Fin.ext (by match a with | ⟨0, _⟩ => rfl | ⟨1, _⟩ => rfl | ⟨2, _⟩ => rfl | ⟨3, _⟩ => rfl)
theorem idx_32_33 (b : Fin 64) (c : Fin 3) (h w : Fin 64) (e : Fin 128) :
    Read.idx_main_v32 (Read.idx_main_v33 (ix5 b c h w e)) = ix4 c h w e :=
  funext fun a => Fin.ext (by match a with | ⟨0, _⟩ => rfl | ⟨1, _⟩ => rfl | ⟨2, _⟩ => rfl | ⟨3, _⟩ => rfl)
theorem idx_35_36 (b : Fin 64) (c : Fin 3) (h w : Fin 64) (e : Fin 128) :
    Read.idx_main_v35 (Read.idx_main_v36 (ix5 b c h w e)) = ix4 c h w e :=
  funext fun a => Fin.ext (by match a with | ⟨0, _⟩ => rfl | ⟨1, _⟩ => rfl | ⟨2, _⟩ => rfl | ⟨3, _⟩ => rfl)
theorem idx_50_51 (b : Fin 64) (c : Fin 3) (h w : Fin 64) (e : Fin 128) :
    Read.idx_main_v50 (Read.idx_main_v51 (ix5 b c h w e)) = ix4 c h w e :=
  funext fun a => Fin.ext (by match a with | ⟨0, _⟩ => rfl | ⟨1, _⟩ => rfl | ⟨2, _⟩ => rfl | ⟨3, _⟩ => rfl)

/-- The input seen from (b, c, h, w, e) is read at (b, c, h, w). -/
theorem idx_13_16 (b : Fin 64) (c : Fin 3) (h w : Fin 64) (e : Fin 128) :
    Read.idx_main_v13 (Read.idx_main_v16 (ix5 b c h w e)) = ix4 b c h w :=
  funext fun a => Fin.ext (by match a with | ⟨0, _⟩ => rfl | ⟨1, _⟩ => rfl | ⟨2, _⟩ => rfl | ⟨3, _⟩ => rfl)

/-- Pixel (b, c, h, w) with coordinate k on the summed axis is entry (b, c, h, w, k). -/
theorem idx_38 (b : Fin 64) (c : Fin 3) (h w : Fin 64) (k : Fin 128) :
    Read.idx_main_v38 (ix4 b c h w) k = ix5 b c h w k :=
  funext fun a => Fin.ext (by match a with | ⟨0, _⟩ => rfl | ⟨1, _⟩ => rfl | ⟨2, _⟩ => rfl | ⟨3, _⟩ => rfl | ⟨4, _⟩ => rfl)
theorem idx_53 (b : Fin 64) (c : Fin 3) (h w : Fin 64) (k : Fin 128) :
    Read.idx_main_v53 (ix4 b c h w) k = ix5 b c h w k :=
  funext fun a => Fin.ext (by match a with | ⟨0, _⟩ => rfl | ⟨1, _⟩ => rfl | ⟨2, _⟩ => rfl | ⟨3, _⟩ => rfl | ⟨4, _⟩ => rfl)

/-- A [3, 64, 64] array seen from (b, c, h, w) is read at (c, h, w). -/
theorem idx_39_40 (b : Fin 64) (c : Fin 3) (h w : Fin 64) :
    Read.idx_main_v39 (Read.idx_main_v40 (ix4 b c h w)) = ix3 c h w :=
  funext fun a => Fin.ext (by match a with | ⟨0, _⟩ => rfl | ⟨1, _⟩ => rfl | ⟨2, _⟩ => rfl)
theorem idx_43_44 (b : Fin 64) (c : Fin 3) (h w : Fin 64) :
    Read.idx_main_v43 (Read.idx_main_v44 (ix4 b c h w)) = ix3 c h w :=
  funext fun a => Fin.ext (by match a with | ⟨0, _⟩ => rfl | ⟨1, _⟩ => rfl | ⟨2, _⟩ => rfl)
theorem idx_54_55 (b : Fin 64) (c : Fin 3) (h w : Fin 64) :
    Read.idx_main_v54 (Read.idx_main_v55 (ix4 b c h w)) = ix3 c h w :=
  funext fun a => Fin.ext (by match a with | ⟨0, _⟩ => rfl | ⟨1, _⟩ => rfl | ⟨2, _⟩ => rfl)

/-! ## One pixel: the pre-activations, the two sines, the quotient and the inner sum -/

/-- uₑ = softplus aₑ · x + βₑ at (b, c, h, w, e). -/
theorem pre_at (x0 : AX) (x1 x2 : AW) (b : Fin 64) (c : Fin 3) (h w : Fin 64) (e : Fin 128) :
    Read.val_main_v20 (F := Ideal) x0 x1 x2 (ix5 b c h w e)
      = SineFlow.pre (x0 (ix4 b c h w)) (rowOf x1 c h w) (rowOf x2 c h w) e := by
  rw [Read.val_main_v20_apply, Read.val_main_v17_apply, Read.val_main_v15_apply, Read.val_main_v14_apply, idx_14_15,
    softplus_at, Read.val_main_v16_apply, Read.val_main_v13_apply, idx_13_16, Read.val_main_v19_apply,
    Read.val_main_v18_apply, idx_18_19]
  rfl

/-- sin 2βₑ at (c, h, w, e). -/
theorem sin2b_at (x2 : AW) (c : Fin 3) (h w : Fin 64) (e : Fin 128) :
    Read.val_main_v23 (F := Ideal) x2 (ix4 c h w e) = Ideal.sin (w2 * x2 (ix4 c h w e)) := by
  rw [Read.val_main_v23_apply, Read.val_main_v22_apply, Read.val_main_v21_apply, Read.val_main_cst_2_apply]
  rfl

/-- The summand πₑ · (sin 2βₑ − sin 2uₑ) / (2 wₑ) at (b, c, h, w, e). -/
theorem term_at (x0 : AX) (x1 x2 x3 : AW) (b : Fin 64) (c : Fin 3) (h w : Fin 64) (e : Fin 128) :
    Read.val_main_v37 (F := Ideal) x0 x1 x2 x3 (ix5 b c h w e)
      = SineFlow.mix (rowOf x3 c h w) e
        * Ideal.div (Ideal.sin (w2 * x2 (ix4 c h w e))
            - Ideal.sin (w2 * SineFlow.pre (x0 (ix4 b c h w)) (rowOf x1 c h w) (rowOf x2 c h w) e))
          (w2 * SineFlow.softplus (x1 (ix4 c h w e))) := by
  rw [Read.val_main_v37_apply, Read.val_main_v36_apply, Read.val_main_v35_apply, idx_35_36, mix_at,
    Read.val_main_v34_apply, Read.val_main_v29_apply, Read.val_main_v28_apply, Read.val_main_v27_apply, idx_27_28,
    sin2b_at, Read.val_main_v26_apply, Read.val_main_v25_apply, Read.val_main_v24_apply, Read.val_main_cst_3_apply,
    pre_at, Read.val_main_v33_apply, Read.val_main_v32_apply, idx_32_33, Read.val_main_v31_apply,
    Read.val_main_v30_apply, Read.val_main_cst_4_apply, softplus_at]
  rfl

/-- The inner sum of pixel (b, c, h, w), in the reference's spelling. -/
theorem inner_at (x0 : AX) (x1 x2 x3 : AW) (b : Fin 64) (c : Fin 3) (h w : Fin 64) :
    Read.val_main_v38 (F := Ideal) x0 x1 x2 x3 (ix4 b c h w)
      = SineFlow.innerJoint (x0 (ix4 b c h w)) (rowOf x1 c h w) (rowOf x2 c h w) (rowOf x3 c h w) := by
  rw [Read.val_main_v38_apply, Read.val_main_cst_5_apply, zeroWord_add]
  unfold SineFlow.innerJoint
  exact Finset.sum_congr rfl fun k _ => by rw [idx_38, term_at]

/-! ## The first result: y -/

/-- The reference's first result is y, pixel by pixel: x + tanh r · (inner sum) + bias. -/
theorem ref_y (x0 : (⟨S64x3x64x64, .f32⟩ : BufTy).Contents (Elt Ideal)) (x1 x2 x3 : (⟨S3x64x64x128, .f32⟩ : BufTy).Contents (Elt Ideal))
    (x4 x5 : (⟨S3x64x64, .f32⟩ : BufTy).Contents (Elt Ideal)) :
    Read.val_main_v45 (F := Ideal) x0 x1 x2 x3 x4 x5 = SineFlow.yArr x0 x1 x2 x3 x4 x5 := by
  funext i
  obtain ⟨b, c, h, w, rfl⟩ : ∃ (b : Fin 64) (c : Fin 3) (h w : Fin 64), i = ix4 b c h w :=
    ⟨i 0, i 1, i 2, i 3, eq_ix4 i⟩
  rw [Read.val_main_v45_apply, Read.val_main_v42_apply, Read.val_main_v41_apply, Read.val_main_v40_apply,
    Read.val_main_v39_apply, idx_39_40, Read.val_main_v12_apply, inner_at, Read.val_main_v44_apply,
    Read.val_main_v43_apply, idx_43_44]
  rfl

/-! ## The second result: the log-determinant -/

/-- The summand πₑ · cos 2uₑ at (b, c, h, w, e). -/
theorem cosTerm_at (x0 : AX) (x1 x2 x3 : AW) (b : Fin 64) (c : Fin 3) (h w : Fin 64) (e : Fin 128) :
    Read.val_main_v52 (F := Ideal) x0 x1 x2 x3 (ix5 b c h w e)
      = SineFlow.mix (rowOf x3 c h w) e
        * Ideal.cos (w2 * SineFlow.pre (x0 (ix4 b c h w)) (rowOf x1 c h w) (rowOf x2 c h w) e) := by
  rw [Read.val_main_v52_apply, Read.val_main_v51_apply, Read.val_main_v50_apply, idx_50_51, mix_at,
    Read.val_main_v49_apply, Read.val_main_v48_apply, Read.val_main_v47_apply, Read.val_main_cst_6_apply, pre_at]
  rfl

/-- Σₑ πₑ · cos 2uₑ at pixel (b, c, h, w). -/
theorem cosSum_at (x0 : AX) (x1 x2 x3 : AW) (b : Fin 64) (c : Fin 3) (h w : Fin 64) :
    Read.val_main_v53 (F := Ideal) x0 x1 x2 x3 (ix4 b c h w)
      = ∑ e : Fin 128, SineFlow.mix (rowOf x3 c h w) e
          * Ideal.cos (w2 * SineFlow.pre (x0 (ix4 b c h w)) (rowOf x1 c h w) (rowOf x2 c h w) e) := by
  rw [Read.val_main_v53_apply, Read.val_main_cst_7_apply, zeroWord_add]
  exact Finset.sum_congr rfl fun k _ => by rw [idx_53, cosTerm_at]

/-- The pixel's term log (1 + (−tanh r) · Σₑ πₑ · cos 2uₑ) at (b, c, h, w). -/
theorem ldTerm_at (x0 : AX) (x1 x2 x3 : AW) (x5 : AP) (b : Fin 64) (c : Fin 3) (h w : Fin 64) :
    Read.val_main_v57 (F := Ideal) x0 x1 x2 x3 x5 (ix4 b c h w)
      = SineFlow.ldTerm (x0 (ix4 b c h w)) (rowOf x1 c h w) (rowOf x2 c h w) (rowOf x3 c h w) (x5 (ix3 c h w)) := by
  rw [Read.val_main_v57_apply, Read.val_main_v56_apply, Read.val_main_v55_apply, Read.val_main_v54_apply, idx_54_55,
    Read.val_main_v46_apply, Read.val_main_v12_apply, cosSum_at]
  rfl

/-! ## The sum over the pixels of a batch row -/

/-- Pixel (c, h, w) of batch row b, as an index of the [64, 3, 64, 64] array. -/
def pixelEmb (b : Fin 64) : Fin 3 × Fin 64 × Fin 64 ↪ S64x3x64x64.Idx :=
  ⟨fun p => ix4 b p.1 p.2.1 p.2.2, fun p q hpq => by
    have h1 : p.1 = q.1 := congrFun hpq 1
    have h2 : p.2.1 = q.2.1 := congrFun hpq 2
    have h3 : p.2.2 = q.2.2 := congrFun hpq 3
    exact Prod.ext h1 (Prod.ext h2 h3)⟩

/-- Dropping the three pixel axes of (b, c, h, w) leaves b; -/
theorem drop_pixel (b : Fin 64) (c : Fin 3) (h w : Fin 64) :
    reducesTo_S64x3x64x64_S64_d1_2_3.drop (ix4 b c h w) = ix1 b := by
  funext a
  match a with
  | ⟨0, _⟩ => rfl

/-- and an index that drops to b is (b, its three pixel coordinates); -/
theorem eq_pixel_of_drop (i : S64x3x64x64.Idx) (b : Fin 64)
    (hd : reducesTo_S64x3x64x64_S64_d1_2_3.drop i = ix1 b) : i = ix4 b (i 1) (i 2) (i 3) := by
  have h0 : i 0 = b := congrFun hd 0
  subst h0
  exact eq_ix4 i

/-- so the indices the sum visits at b are exactly the pixels of batch row b. -/
theorem filter_drop_pixel (b : Fin 64) :
    Finset.univ.filter (fun i : S64x3x64x64.Idx => reducesTo_S64x3x64x64_S64_d1_2_3.drop i = ix1 b)
      = Finset.univ.map (pixelEmb b) := by
  ext i
  simp only [Finset.mem_filter, Finset.mem_univ, true_and, Finset.mem_map, pixelEmb]
  exact ⟨fun hd => ⟨(i 1, i 2, i 3), (eq_pixel_of_drop i b hd).symm⟩,
    fun ⟨p, hp⟩ => hp ▸ drop_pixel b p.1 p.2.1 p.2.2⟩

/-- The reference's second result is the log-determinant: at batch row b, the sum of the pixel terms over
    (c, h, w). -/
theorem ref_ld (x0 : (⟨S64x3x64x64, .f32⟩ : BufTy).Contents (Elt Ideal)) (x1 x2 x3 : (⟨S3x64x64x128, .f32⟩ : BufTy).Contents (Elt Ideal))
    (x5 : (⟨S3x64x64, .f32⟩ : BufTy).Contents (Elt Ideal)) :
    Read.val_main_v58 (F := Ideal) x0 x1 x2 x3 x5 = SineFlow.ldArr x0 x1 x2 x3 x5 := by
  funext j
  obtain ⟨b, rfl⟩ : ∃ b : Fin 64, j = ix1 b := ⟨j 0, eq_ix1 j⟩
  show Ideal.hostReduceAdd reducesTo_S64x3x64x64_S64_d1_2_3 (Read.val_main_v57 (F := Ideal) x0 x1 x2 x3 x5)
      (Read.val_main_cst_8 (F := Ideal) (Shape.Idx.first h_S_)) (ix1 b)
    = ∑ c : Fin 3, ∑ h : Fin 64, ∑ w : Fin 64,
        SineFlow.ldTerm (x0 (ix4 b c h w)) (rowOf x1 c h w) (rowOf x2 c h w) (rowOf x3 c h w) (x5 (ix3 c h w))
  unfold Ideal.hostReduceAdd
  rw [filter_drop_pixel, Finset.sum_map, Read.val_main_cst_8_apply, zeroWord_add, Fintype.sum_prod_type]
  refine Finset.sum_congr rfl fun c _ => ?_
  rw [Fintype.sum_prod_type]
  exact Finset.sum_congr rfl fun h _ => Finset.sum_congr rfl fun w _ => ldTerm_at x0 x1 x2 x3 x5 b c h w

end Cert.ReferenceIdeal.RefSpec

end
-- ==== Proof.FlowReshape.lean ====
/-
  The flat layer reshaped back is the layer.

  Reshaping keeps the row-major position.  So a [64, 3, 64, 64] array seen as [64, 12288] puts (b, c, h, w) at
  (b, 4096 c + 64 h + w); a [3, 64, 64, 128] array seen as [12288, 128] puts (c, h, w, e) at (4096 c + 64 h + w, e);
  a [3, 64, 64] array seen as [1, 12288] puts (c, h, w) at (0, 4096 c + 64 h + w).  Hence y computed over the flat
  arrays and reshaped to [64, 3, 64, 64] is y of the layer, pixel by pixel, and the row sums of the flat
  log-determinant terms, a [64, 1] column read as 64 numbers, are the layer's log-determinants: the sum over the
  12288 flat pixels of a batch row is the sum over (c, h, w).
-/
import proofs.«100866_j71459665871290_2_alg».proof.Proof.FlowSpec
import proofs.«100866_j71459665871290_2_alg».proof.Proof.FlowFlat
import Idealize.ShloMosaic.Lib.Pipeline.Value
import Idealize.ShloMosaic.Lib.ValueIdx

noncomputable section

namespace SineFlow

open Idealize.ShloMosaic Idealize.ShloMosaic.ValueIdx Finset

/-- 4096 c + 64 h + w is one of the 12288 flat pixels. -/
theorem pixel_lt (c : Fin 3) (h w : Fin 64) : c.val * 4096 + h.val * 64 + w.val < 12288 := by
  have := c.isLt; have := h.isLt; have := w.isLt
  omega

/-! ## Reading the three reshapes at an index -/

/-- The input seen as [64, 12288]: (b, n) with n = 4096 c + 64 h + w reads (b, c, h, w). -/
theorem reshapeX_apply (x : SX.Idx → EReal) (hX : SX.ShapeCasts SXf) (b : Fin 64) (c : Fin 3) (h w : Fin 64)
    (n : Fin 12288) (hn : n.val = c.val * 4096 + h.val * 64 + w.val) :
    shapeCast SXf x hX (ix2 b n) = x (ix4 b c h w) :=
  shapeCast_apply x hX (ix2 b n) (ix4 b c h w) (by
    rw [Shape.rowMajor_val_four, Shape.rowMajor_val_two]
    show ((b.val * 3 + c.val) * 64 + h.val) * 64 + w.val = b.val * 12288 + n.val
    omega)

/-- A weight array seen as [12288, 128]: (n, e) with n = 4096 c + 64 h + w reads (c, h, w, e). -/
theorem reshapeW_apply (A : SW.Idx → EReal) (hW : SW.ShapeCasts SWf) (c : Fin 3) (h w : Fin 64) (e : Fin 128)
    (n : Fin 12288) (hn : n.val = c.val * 4096 + h.val * 64 + w.val) :
    shapeCast SWf A hW (ix2 n e) = A (ix4 c h w e) :=
  shapeCast_apply A hW (ix2 n e) (ix4 c h w e) (by
    rw [Shape.rowMajor_val_four, Shape.rowMajor_val_two]
    show ((c.val * 64 + h.val) * 64 + w.val) * 128 + e.val = n.val * 128 + e.val
    omega)

/-- So row n of the flat weights is row (c, h, w) of the weights. -/
theorem rowF_reshape (A : SW.Idx → EReal) (hW : SW.ShapeCasts SWf) (c : Fin 3) (h w : Fin 64)
    (n : Fin 12288) (hn : n.val = c.val * 4096 + h.val * 64 + w.val) :
    rowF (shapeCast SWf A hW) n = rowOf A c h w :=
  funext fun e => reshapeW_apply A hW c h w e n hn

/-- A per-pixel array seen as [1, 12288]: (0, n) with n = 4096 c + 64 h + w reads (c, h, w). -/
theorem reshapeP_apply (R : SP.Idx → EReal) (hP : SP.ShapeCasts SPf) (c : Fin 3) (h w : Fin 64)
    (n : Fin 12288) (hn : n.val = c.val * 4096 + h.val * 64 + w.val) :
    shapeCast SPf R hP (ix2 (0 : Fin 1) n) = R (ix3 c h w) :=
  shapeCast_apply R hP (ix2 (0 : Fin 1) n) (ix3 c h w) (by
    rw [Shape.rowMajor_val_three, Shape.rowMajor_val_two]
    show (c.val * 64 + h.val) * 64 + w.val = 0 * 12288 + n.val
    omega)

/-! ## y -/

/-- y over the reshaped arrays at (b, 4096 c + 64 h + w) is y of pixel (b, c, h, w), in the same spelling. -/
theorem yFlatAt_reshape (x : SX.Idx → EReal) (A B O : SW.Idx → EReal) (bias R : SP.Idx → EReal)
    (hX : SX.ShapeCasts SXf) (hW : SW.ShapeCasts SWf) (hP : SP.ShapeCasts SPf) (b : Fin 64) (c : Fin 3) (h w : Fin 64)
    (n : Fin 12288) (hn : n.val = c.val * 4096 + h.val * 64 + w.val) :
    yFlatAt (shapeCast SXf x hX) (shapeCast SWf A hW) (shapeCast SWf B hW) (shapeCast SWf O hW)
        (shapeCast SPf bias hP) (shapeCast SPf R hP) b n
      = ySplit (x (ix4 b c h w)) (rowOf A c h w) (rowOf B c h w) (rowOf O c h w) (bias (ix3 c h w)) (R (ix3 c h w)) := by
  unfold yFlatAt
  rw [reshapeX_apply x hX b c h w n hn, rowF_reshape A hW c h w n hn, rowF_reshape B hW c h w n hn,
    rowF_reshape O hW c h w n hn, reshapeP_apply bias hP c h w n hn, reshapeP_apply R hP c h w n hn]

/-- An array that is y over the flat arrays at every (b, n), reshaped to [64, 3, 64, 64], is y of the layer. -/
theorem yFlat_reshape (x : SX.Idx → EReal) (A B O : SW.Idx → EReal) (bias R : SP.Idx → EReal)
    (hX : SX.ShapeCasts SXf) (hW : SW.ShapeCasts SWf) (hP : SP.ShapeCasts SPf) (hY : SXf.ShapeCasts SX)
    (Y : SXf.Idx → EReal)
    (hYv : ∀ (b : Fin 64) (n : Fin 12288), Y (ix2 b n)
      = yFlatAt (shapeCast SXf x hX) (shapeCast SWf A hW) (shapeCast SWf B hW) (shapeCast SWf O hW)
          (shapeCast SPf bias hP) (shapeCast SPf R hP) b n) :
    shapeCast SX Y hY = yArrSplit x A B O bias R := by
  funext i
  obtain ⟨b, c, h, w, rfl⟩ : ∃ (b : Fin 64) (c : Fin 3) (h w : Fin 64), i = ix4 b c h w :=
    ⟨i 0, i 1, i 2, i 3, eq_ix4 i⟩
  obtain ⟨n, hn⟩ : ∃ n : Fin 12288, n.val = c.val * 4096 + h.val * 64 + w.val := ⟨⟨_, pixel_lt c h w⟩, rfl⟩
  rw [shapeCast_apply Y hY (ix4 b c h w) (ix2 b n) (by
      rw [Shape.rowMajor_val_four, Shape.rowMajor_val_two]
      show b.val * 12288 + n.val = ((b.val * 3 + c.val) * 64 + h.val) * 64 + w.val
      omega), hYv, yFlatAt_reshape x A B O bias R hX hW hP b c h w n hn]
  rfl

/-! ## The log-determinant -/

/-- The flat term over the reshaped arrays at (b, 4096 c + 64 h + w) is the term of pixel (b, c, h, w). -/
theorem termFlatAt_reshape (x : SX.Idx → EReal) (A B O : SW.Idx → EReal) (R : SP.Idx → EReal)
    (hX : SX.ShapeCasts SXf) (hW : SW.ShapeCasts SWf) (hP : SP.ShapeCasts SPf) (b : Fin 64) (c : Fin 3) (h w : Fin 64)
    (n : Fin 12288) (hn : n.val = c.val * 4096 + h.val * 64 + w.val) :
    termFlatAt (shapeCast SXf x hX) (shapeCast SWf A hW) (shapeCast SWf B hW) (shapeCast SWf O hW)
        (shapeCast SPf R hP) b n
      = ldTerm (x (ix4 b c h w)) (rowOf A c h w) (rowOf B c h w) (rowOf O c h w) (R (ix3 c h w)) := by
  unfold termFlatAt
  rw [reshapeX_apply x hX b c h w n hn, rowF_reshape A hW c h w n hn, rowF_reshape B hW c h w n hn,
    rowF_reshape O hW c h w n hn, reshapeP_apply R hP c h w n hn]

/-- The sum of the flat terms of batch row b over the 12288 pixels, regrouped as a sum over (c, h, w). -/
theorem sum_termFlat (X : SXf.Idx → EReal) (A B O : SWf.Idx → EReal) (R : SPf.Idx → EReal) (b : Fin 64) :
    ∑ n : Fin 12288, termFlatAt X A B O R b n
      = ∑ c : Fin 3, ∑ h : Fin 64, ∑ w : Fin 64, termNat X A B O R b.val (c.val * 4096 + h.val * 64 + w.val) :=
  (Finset.sum_congr rfl fun n _ => (termNat_val X A B O R b n).symm).trans (sum_pixels (termNat X A B O R b.val))

/-- A [64, 1] column holding, at row b, the sum of the flat terms of batch row b, read as 64 numbers, is the
    layer's log-determinant. -/
theorem ldFlat_reshape (x : SX.Idx → EReal) (A B O : SW.Idx → EReal) (R : SP.Idx → EReal)
    (hX : SX.ShapeCasts SXf) (hW : SW.ShapeCasts SWf) (hP : SP.ShapeCasts SPf)
    (hL : (⟨2, ![64, 1]⟩ : Shape).ShapeCasts SB) (L : (⟨2, ![64, 1]⟩ : Shape).Idx → EReal)
    (hLv : ∀ (b : Fin 64) (u : Fin 1), L (ix2 b u)
      = ∑ n : Fin 12288, termFlatAt (shapeCast SXf x hX) (shapeCast SWf A hW) (shapeCast SWf B hW)
          (shapeCast SWf O hW) (shapeCast SPf R hP) b n) :
    shapeCast SB L hL = ldArr x A B O R := by
  funext i
  obtain ⟨b, rfl⟩ : ∃ b : Fin 64, i = ix1 b := ⟨i 0, eq_ix1 i⟩
  rw [shapeCast_apply L hL (ix1 b) (ix2 b (0 : Fin 1)) (by
      rw [Shape.rowMajor_val_two, Shape.rowMajor_val_one]
      show b.val * 1 + 0 = b.val
      omega), hLv, sum_termFlat]
  show _ = ∑ c : Fin 3, ∑ h : Fin 64, ∑ w : Fin 64,
    ldTerm (x (ix4 b c h w)) (rowOf A c h w) (rowOf B c h w) (rowOf O c h w) (R (ix3 c h w))
  refine Finset.sum_congr rfl fun c _ => Finset.sum_congr rfl fun h _ => Finset.sum_congr rfl fun w _ => ?_
  exact (termNat_val _ _ _ _ _ b ⟨_, pixel_lt c h w⟩).trans
    (termFlatAt_reshape x A B O R hX hW hP b c h w ⟨_, pixel_lt c h w⟩ rfl)

end SineFlow

end
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.FlowAlgebra.lean ====
/-
  The two spellings of the inner sum of a sinusoidal-flow layer agree on finite inputs.

  With every input a real number, each quantity of the layer is a real number:
  softplus v = max v 0 + log (1 + exp (−|v|)) is a POSITIVE real (the exponential of a real is positive, so the
  logarithm is taken of a real above 1); the largest entry of a row of 128 reals is a real; exp (oₑ − max o) is a
  positive real, so is the sum of these over the row, and the softmax weight πₑ is a positive real; the sines are
  reals.  Division by the nonzero real 2·wₑ is multiplication by its reciprocal, so with ιₑ = 1 / (2 wₑ)

      Σₑ (πₑ · sₑ) · ιₑ − Σₑ (πₑ · ιₑ) · tₑ  =  Σₑ πₑ · ((sₑ − tₑ) · ιₑ)

  is an identity between finite sums of real numbers.
-/
import proofs.«100866_j71459665871290_2_alg».proof.Proof.FlowSpec
import proofs.«100866_j71459665871290_2_alg».proof.Proof.LibERealSums

noncomputable section

open scoped BigOperators

namespace SineFlow

open Idealize.ShloMosaic Cert.LibERealSums RowReduce

/-! ## The four words -/

/-- The word of 0 is the extended real 0. -/
theorem w0_eq : w0 = 0 := by simp [Ideal.ofBits, Ideal.ieee]

/-- The word of 1 is the real number 1. -/
theorem w1_coe : w1 = ((1 : ℝ) : EReal) := by
  simp [Ideal.ofBits, Ideal.ieee]
  rw [← EReal.coe_mul, ← EReal.coe_one, EReal.coe_eq_coe_iff]; norm_num

/-- The word of 1 is the extended real 1. -/
theorem w1_eq : w1 = 1 := by rw [w1_coe, EReal.coe_one]

/-- The word of 2 is the real number 2. -/
theorem w2_coe : w2 = ((2 : ℝ) : EReal) := by
  simp [Ideal.ofBits, Ideal.ieee]
  rw [← EReal.coe_mul, EReal.coe_eq_coe_iff]; norm_num

/-- The word of −∞ is the bottom of the extended reals. -/
theorem wNegInf_eq : wNegInf = ⊥ := by simp [Ideal.ofBits, Ideal.ieee]

/-- 0 − t = −t, for every extended real t. -/
theorem w0_sub (t : EReal) : w0 - t = -t := by rw [w0_eq, zero_sub]

/-- 0 + t = t, for every extended real t. -/
theorem w0_add (t : EReal) : w0 + t = t := by rw [w0_eq, zero_add]

/-! ## Real numbers inside the extended reals -/

/-- The larger of two reals, seen as an extended real, is the larger of the two extended reals. -/
theorem coe_max_real (x y : ℝ) : ((max x y : ℝ) : EReal) = max (x : EReal) (y : EReal) :=
  Monotone.map_max fun _ _ h => EReal.coe_le_coe_iff.mpr h

/-- A finite sum of reals, seen term by term as extended reals, is the real sum. -/
theorem coe_sum_real {ι : Type*} (s : Finset ι) (g : ι → ℝ) :
    ∑ i ∈ s, (g i : EReal) = ((∑ i ∈ s, g i : ℝ) : EReal) := by
  classical
  induction s using Finset.induction_on with
  | empty => simp
  | insert i s hi ih => rw [Finset.sum_insert hi, Finset.sum_insert hi, EReal.coe_add, ih]

/-- The maximum, folded from −∞, of a nonempty finite family of reals is a real. -/
theorem fold_max_real {ι : Type*} (s : Finset ι) (hs : s.Nonempty) (g : ι → ℝ) :
    ∃ m : ℝ, s.fold max (⊥ : EReal) (fun e => (g e : EReal)) = (m : EReal) := by
  induction hs using Finset.Nonempty.cons_induction with
  | singleton a => exact ⟨g a, by rw [Finset.fold_singleton, max_bot_right]⟩
  | cons a s ha hs ih =>
    obtain ⟨m, hm⟩ := ih
    exact ⟨max (g a) m, by rw [Finset.fold_cons, hm, coe_max_real]⟩

/-! ## softplus -/

/-- softplus of a real r is the real  max r 0 + log (1 + exp (−max r (−r))). -/
theorem softplus_coe (r : ℝ) :
    softplus (r : EReal) = ((max r 0 + Real.log (1 + Real.exp (-(max r (-r)))) : ℝ) : EReal) := by
  have h1 : max (r : EReal) w0 = ((max r 0 : ℝ) : EReal) := by rw [w0_eq, ← EReal.coe_zero, coe_max_real]
  have h2 : max ((r : EReal) - w0) (-((r : EReal) - w0)) = ((max r (-r) : ℝ) : EReal) := by
    rw [w0_eq, sub_zero, coe_max_real, EReal.coe_neg]
  have h3 : (0 : ℝ) < 1 + Real.exp (-(max r (-r))) := by positivity
  unfold softplus
  rw [h1, h2, ← EReal.coe_neg, Ideal.exp_coe, Ideal.log1p, ← EReal.coe_one, ← EReal.coe_add, Ideal.log_coe,
    if_neg (not_le.mpr h3), ← EReal.coe_add]

/-- That real is positive: max r 0 ≥ 0, and the logarithm is of a real above 1. -/
theorem softplus_real_pos (r : ℝ) : 0 < max r 0 + Real.log (1 + Real.exp (-(max r (-r)))) :=
  add_pos_of_nonneg_of_pos (le_max_right r 0)
    (Real.log_pos (by linarith [Real.exp_pos (-(max r (-r)))]))

/-- softplus of a finite extended real is a positive real. -/
theorem softplus_pos_real (v : EReal) (hv : IsFin v) : ∃ r : ℝ, 0 < r ∧ softplus v = (r : EReal) := by
  obtain ⟨r, rfl⟩ := hv.exists_coe
  exact ⟨_, softplus_real_pos r, softplus_coe r⟩

/-- softplus of a finite extended real is finite. -/
theorem isFin_softplus (v : EReal) (hv : IsFin v) : IsFin (softplus v) := by
  obtain ⟨r, _, hr⟩ := softplus_pos_real v hv
  rw [hr]; exact isFin_coe r

/-! ## The row maximum and the softmax weights -/

/-- The largest entry of a row of 128 finite extended reals is a real. -/
theorem rowMax_real (o : Fin 128 → EReal) (ho : ∀ e, IsFin (o e)) : ∃ m : ℝ, rowMax o = (m : EReal) := by
  choose g hg using fun e => (ho e).exists_coe
  obtain rfl : o = fun e => (g e : EReal) := funext hg
  obtain ⟨m, hm⟩ := fold_max_real Finset.univ Finset.univ_nonempty g
  refine ⟨m, ?_⟩
  unfold rowMax foldMax
  rw [wNegInf_eq, hm, max_bot_left]

/-- exp (oₑ − max o) is a positive real. -/
theorem expRow_pos_real (o : Fin 128 → EReal) (ho : ∀ e, IsFin (o e)) (e : Fin 128) :
    ∃ r : ℝ, 0 < r ∧ expRow o e = (r : EReal) := by
  obtain ⟨m, hm⟩ := rowMax_real o ho
  obtain ⟨x, hx⟩ := (ho e).exists_coe
  exact ⟨Real.exp (x - m), Real.exp_pos _, by unfold expRow; rw [hm, hx, ← EReal.coe_sub, Ideal.exp_coe]⟩

/-- The sum of exp (oₖ − max o) over the row is a positive real. -/
theorem sum_expRow_pos_real (o : Fin 128 → EReal) (ho : ∀ e, IsFin (o e)) :
    ∃ r : ℝ, 0 < r ∧ ∑ k : Fin 128, expRow o k = (r : EReal) := by
  choose p hp0 hp using expRow_pos_real o ho
  exact ⟨∑ k, p k, Finset.sum_pos (fun k _ => hp0 k) Finset.univ_nonempty, by
    rw [Finset.sum_congr rfl fun k _ => hp k, coe_sum_real]⟩

/-- The softmax weight πₑ is a positive real. -/
theorem mix_pos_real (o : Fin 128 → EReal) (ho : ∀ e, IsFin (o e)) (e : Fin 128) :
    ∃ r : ℝ, 0 < r ∧ mix o e = (r : EReal) := by
  obtain ⟨p, hp0, hp⟩ := expRow_pos_real o ho e
  obtain ⟨S, hS0, hS⟩ := sum_expRow_pos_real o ho
  exact ⟨p * (1 / S), mul_pos hp0 (one_div_pos.mpr hS0), by
    unfold mix; rw [hp, hS, Ideal.div_coe hS0.ne', ← EReal.coe_mul]⟩

/-- The softmax weight πₑ is a real. -/
theorem mix_real (o : Fin 128 → EReal) (ho : ∀ e, IsFin (o e)) (e : Fin 128) : ∃ r : ℝ, mix o e = (r : EReal) := by
  obtain ⟨r, _, hr⟩ := mix_pos_real o ho e
  exact ⟨r, hr⟩

/-- The softmax weight πₑ is finite. -/
theorem isFin_mix (o : Fin 128 → EReal) (ho : ∀ e, IsFin (o e)) (e : Fin 128) : IsFin (mix o e) := by
  obtain ⟨r, hr⟩ := mix_real o ho e
  rw [hr]; exact isFin_coe r

/-! ## The reciprocal 1 / (2 w) and the argument u = w · x + β -/

/-- With w = softplus aₑ a positive real, 2 w is a real and ιₑ is the real 1 / (2 w). -/
theorem inv2w_real (a : Fin 128 → EReal) (ha : ∀ e, IsFin (a e)) (e : Fin 128) :
    ∃ w : ℝ, 0 < w ∧ softplus (a e) = (w : EReal) ∧ inv2w a e = ((1 / (2 * w) : ℝ) : EReal) := by
  obtain ⟨w, hw0, hw⟩ := softplus_pos_real (a e) (ha e)
  have h2w : (2 * w : ℝ) ≠ 0 := by positivity
  refine ⟨w, hw0, hw, ?_⟩
  unfold inv2w
  rw [hw, w2_coe, ← EReal.coe_mul, Ideal.div_coe h2w, w1_eq, one_mul]

/-- ιₑ is finite. -/
theorem isFin_inv2w (a : Fin 128 → EReal) (ha : ∀ e, IsFin (a e)) (e : Fin 128) : IsFin (inv2w a e) := by
  obtain ⟨w, _, _, hw⟩ := inv2w_real a ha e
  rw [hw]; exact isFin_coe _

/-- uₑ = softplus aₑ · x + βₑ is finite. -/
theorem isFin_pre (x : EReal) (a β : Fin 128 → EReal) (hx : IsFin x) (ha : ∀ e, IsFin (a e)) (hβ : ∀ e, IsFin (β e))
    (e : Fin 128) : IsFin (pre x a β e) :=
  ((isFin_softplus (a e) (ha e)).mul hx).add (hβ e)

/-- The sine of twice a real is a real. -/
theorem sin_two_coe (t : ℝ) : Ideal.sin (w2 * (t : EReal)) = ((Real.sin (2 * t) : ℝ) : EReal) := by
  rw [w2_coe, ← EReal.coe_mul, Ideal.sin_coe]

/-- The cosine of twice a real is a real. -/
theorem cos_two_coe (t : ℝ) : Ideal.cos (w2 * (t : EReal)) = ((Real.cos (2 * t) : ℝ) : EReal) := by
  rw [w2_coe, ← EReal.coe_mul, Ideal.cos_coe]

/-! ## The two spellings of the inner sum -/

/-- On finite inputs,  Σₑ (πₑ · sin 2βₑ) · ιₑ − Σₑ (πₑ · ιₑ) · sin 2uₑ = Σₑ πₑ · ((sin 2βₑ − sin 2uₑ) / (2 wₑ)). -/
theorem innerSplit_eq_innerJoint (x : EReal) (a β o : Fin 128 → EReal) (hx : IsFin x) (ha : ∀ e, IsFin (a e))
    (hβ : ∀ e, IsFin (β e)) (ho : ∀ e, IsFin (o e)) : innerSplit x a β o = innerJoint x a β o := by
  choose P hP using mix_real o ho
  choose W hW0 hW hI using inv2w_real a ha
  choose B hB using fun e => (hβ e).exists_coe
  choose u hu using fun e => (isFin_pre x a β hx ha hβ e).exists_coe
  have h2W : ∀ e, w2 * softplus (a e) = ((2 * W e : ℝ) : EReal) := fun e => by
    rw [hW e, w2_coe, ← EReal.coe_mul]
  have h2W0 : ∀ e, (2 * W e : ℝ) ≠ 0 := fun e => by have := hW0 e; positivity
  have hL1 : ∀ e, mix o e * Ideal.sin (w2 * β e) * inv2w a e
      = ((P e * Real.sin (2 * B e) * (1 / (2 * W e)) : ℝ) : EReal) := fun e => by
    rw [hP e, hB e, sin_two_coe, hI e, ← EReal.coe_mul, ← EReal.coe_mul]
  have hL2 : ∀ e, mix o e * inv2w a e * Ideal.sin (w2 * pre x a β e)
      = ((P e * (1 / (2 * W e)) * Real.sin (2 * u e) : ℝ) : EReal) := fun e => by
    rw [hP e, hu e, sin_two_coe, hI e, ← EReal.coe_mul, ← EReal.coe_mul]
  have hR : ∀ e, mix o e * Ideal.div (Ideal.sin (w2 * β e) - Ideal.sin (w2 * pre x a β e)) (w2 * softplus (a e))
      = ((P e * ((Real.sin (2 * B e) - Real.sin (2 * u e)) * (1 / (2 * W e))) : ℝ) : EReal) := fun e => by
    rw [hP e, hB e, hu e, sin_two_coe, sin_two_coe, h2W e, Ideal.div_coe (h2W0 e), ← EReal.coe_sub,
      ← EReal.coe_mul, ← EReal.coe_mul]
  unfold innerSplit innerJoint
  rw [Finset.sum_congr rfl fun e _ => hL1 e, Finset.sum_congr rfl fun e _ => hL2 e,
    Finset.sum_congr rfl fun e _ => hR e, coe_sum_real, coe_sum_real, coe_sum_real, ← EReal.coe_sub,
    ← Finset.sum_sub_distrib]
  exact congrArg _ (Finset.sum_congr rfl fun e _ => by ring)

/-- So y in the kernel's spelling is y in the reference's, on finite inputs (whatever the bias and r). -/
theorem ySplit_eq_yJoint (x : EReal) (a β o : Fin 128 → EReal) (bias r : EReal) (hx : IsFin x)
    (ha : ∀ e, IsFin (a e)) (hβ : ∀ e, IsFin (β e)) (ho : ∀ e, IsFin (o e)) :
    ySplit x a β o bias r = yJoint x a β o bias r := by
  unfold ySplit yJoint
  rw [innerSplit_eq_innerJoint x a β o hx ha hβ ho]

end SineFlow

end
-- ==== Proof.LibFiniteTest.lean ====
/-
  The finiteness test "|v| < +infinity", read on the extended reals.

  A precondition of the form "every entry of the array v satisfies |v| < +inf" compares, entry by entry, the absolute
  value max v (-v) with the float word 0x7F800000 spread over v's shape. That word is +infinity, and max v (-v) is
  +infinity at both infinities, so the test passes at an index exactly when the entry there is a real number.
  (`isFin_of_test` is the form to apply to one conjunct of such a precondition once the "all entries" reduction has been
  opened at an index.)
-/
import proofs.«100866_j71459665871290_2_alg».proof.Proof.LibERealSums
import Idealize.ShloMosaic.PureOps.Ideal
import Idealize.ShloMosaic.Lib.Pipeline.Value
import Idealize.ShloMosaic.Lib.ValueIdx

noncomputable section

namespace Cert.LibFiniteTest

open Idealize.ShloMosaic Idealize.ShloMosaic.ValueIdx Cert.LibERealSums

/-- The float word 0x7F800000 is +infinity. -/
theorem top_word : Ideal.ofBits .f32 0x7F800000#32 = ⊤ := by
  simp [Ideal.ofBits, Ideal.ieee]

/-- An extended real whose absolute value is below +infinity is a real number. -/
theorem isFin_of_abs_lt_top (v : EReal) (h : Ideal.cmp .olt (max v (-v)) ⊤ = 1#1) : IsFin v := by
  induction v using EReal.rec with
  | bot => exact absurd h (by simp [Ideal.cmp])
  | top => exact absurd h (by simp [Ideal.cmp])
  | coe r => exact isFin_coe r

/-- The rank-0 shape has one index. -/
instance subsingleton_scalar_idx : Subsingleton (⟨0, ![]⟩ : Shape).Idx := ⟨fun a b => funext fun d => d.elim0⟩

/-- Where the test "|v| < +inf" (the +infinity word spread over the array's shape) passes at an index, the entry there
    is a real number. -/
theorem isFin_of_test {S : Shape} (v : FVec Ideal S .f32)
    (hb : (⟨0, ![]⟩ : Shape).BroadcastsInDim S (![] : Fin 0 → Fin S.rank)) (i : S.Idx)
    (h : cmpf .olt (Host.absf v) (broadcastInDim S ![] hb (constant (F := Ideal) ⟨0, ![]⟩ .f32 0x7F800000#32)) i = 1#1) :
    IsFin (v i) := by
  rw [cmpf_apply, broadcastInDim_apply ![] hb _ i ix0 (fun a => a.elim0), constant_apply, top_word] at h
  exact isFin_of_abs_lt_top (v i) h

end Cert.LibFiniteTest

end
-- ==== Proof.PreFinite.lean ====
/-
  The precondition makes every input finite.

  The precondition is the conjunction, over the six argument arrays, of "every entry v of the array satisfies
  |v| < +infinity", each conjunct an "and" over all entries of the entrywise test.  Where the conjunction is 1 each
  conjunct is 1; where an "and" over all entries is 1 every entry's test is 1; and the test |v| < +infinity passes
  on the extended reals exactly when v is a real number.  So under the precondition every entry of every argument
  array is a real number.
-/
import proofs.«100866_j71459665871290_2_alg».proof.Defs
import proofs.«100866_j71459665871290_2_alg».proof.Pre_finite_inputs
import proofs.«100866_j71459665871290_2_alg».proof.Proof.LibFiniteTest
import proofs.«100866_j71459665871290_2_alg».proof.Proof.LibERealSums
import Idealize.ShloMosaic.Lib.ReduceAll

noncomputable section

namespace Cert.PreFinite

open Idealize.ShloMosaic Idealize.ShloMosaic.ValueIdx Idealize.SL.Sem Cert.LibERealSums Cert.LibFiniteTest
open Cert.Pre_finite_inputs

/-- Where the six finiteness tests and-ed together give 1, every entry of each of the six arrays is a real number. -/
theorem fn_finite [hF : Cert.Pre_finite_inputs.Facts] (a0 : FVec Ideal S64x3x64x64 .f32)
    (a1 a2 a3 : FVec Ideal S3x64x64x128 .f32) (a4 a5 : FVec Ideal S3x64x64 .f32)
    (h : Cert.Pre_finite_inputs.fn (F := Ideal) a0 a1 a2 a3 a4 a5 = fun _ => 1#1) :
    (∀ i, IsFin (a0 i)) ∧ (∀ i, IsFin (a1 i)) ∧ (∀ i, IsFin (a2 i)) ∧ (∀ i, IsFin (a3 i))
      ∧ (∀ i, IsFin (a4 i)) ∧ (∀ i, IsFin (a5 i)) := by
  have h0 := congrFun h ix0
  dsimp only [Cert.Pre_finite_inputs.fn, Cert.Pre_finite_inputs.fn_part1, andi] at h0
  simp only [IntOp.andi_eq_one] at h0
  obtain ⟨⟨⟨⟨⟨t0, t1⟩, t2⟩, t3⟩, t4⟩, t5⟩ := h0
  exact ⟨fun i => isFin_of_test a0 Facts.bcast_S_S64x3x64x64 i (Host.reduce_andi_all _ _ _ _ ix0 t0 i),
    fun i => isFin_of_test a1 Facts.bcast_S_S3x64x64x128 i (Host.reduce_andi_all _ _ _ _ ix0 t1 i),
    fun i => isFin_of_test a2 Facts.bcast_S_S3x64x64x128 i (Host.reduce_andi_all _ _ _ _ ix0 t2 i),
    fun i => isFin_of_test a3 Facts.bcast_S_S3x64x64x128 i (Host.reduce_andi_all _ _ _ _ ix0 t3 i),
    fun i => isFin_of_test a4 Facts.bcast_S_S3x64x64 i (Host.reduce_andi_all _ _ _ _ ix0 t4 i),
    fun i => isFin_of_test a5 Facts.bcast_S_S3x64x64 i (Host.reduce_andi_all _ _ _ _ ix0 t5 i)⟩

/-- Under the precondition, on every device, every entry of each of the six argument arrays is a real number. -/
theorem inputs_finite [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsFin (m ((c.tc : Thread Cert.KernelIdeal.nD Cert.KernelIdeal.τ).loc Cert.KernelIdeal.main_arg0) i))
      ∧ (∀ i, IsFin (m ((c.tc : Thread Cert.KernelIdeal.nD Cert.KernelIdeal.τ).loc Cert.KernelIdeal.main_arg1) i))
      ∧ (∀ i, IsFin (m ((c.tc : Thread Cert.KernelIdeal.nD Cert.KernelIdeal.τ).loc Cert.KernelIdeal.main_arg2) i))
      ∧ (∀ i, IsFin (m ((c.tc : Thread Cert.KernelIdeal.nD Cert.KernelIdeal.τ).loc Cert.KernelIdeal.main_arg3) i))
      ∧ (∀ i, IsFin (m ((c.tc : Thread Cert.KernelIdeal.nD Cert.KernelIdeal.τ).loc Cert.KernelIdeal.main_arg4) i))
      ∧ (∀ i, IsFin (m ((c.tc : Thread Cert.KernelIdeal.nD Cert.KernelIdeal.τ).loc Cert.KernelIdeal.main_arg5) i)) :=
  fn_finite _ _ _ _ _ _ (h c)

end Cert.PreFinite

end
-- ==== Proof.FlowClaims.lean ====
/-
  The five claims.

  The kernel's run ends with its first result at the flat y array viewed as [64, 3, 64, 64], which is the layer's y in
  the kernel's spelling of the arguments; with every input finite that spelling is the reference's.  Its second result
  is the flat log-determinant column viewed as [64]: the sum over (c, h, w) of the pixel terms — only a regrouping of
  one sum, which needs no finiteness.  The reference's run ends at the same two functions of arguments that agree.
-/
import proofs.«100866_j71459665871290_2_alg».proof.Defs
import proofs.«100866_j71459665871290_2_alg».proof.Proof.Gen.Kernel.Frame
import proofs.«100866_j71459665871290_2_alg».proof.Proof.Gen.KernelIdeal.Frame
import proofs.«100866_j71459665871290_2_alg».proof.Proof.Gen.ReferenceIdeal.Read
import proofs.«100866_j71459665871290_2_alg».proof.Proof.Gen.Pre_finite_inputs
import proofs.«100866_j71459665871290_2_alg».proof.Proof.KernelRun
import proofs.«100866_j71459665871290_2_alg».proof.Proof.RefIsSpec
import proofs.«100866_j71459665871290_2_alg».proof.Proof.FlowReshape
import proofs.«100866_j71459665871290_2_alg».proof.Proof.FlowAlgebra
import proofs.«100866_j71459665871290_2_alg».proof.Proof.PreFinite

noncomputable section

open Idealize.ShloMosaic Idealize.ShloMosaic.TcCoe Idealize.SL.Sem

namespace Cert.Proof.FlowClaims

open SineFlow Cert.LibERealSums

/-! ## The kernel's results as functions of its arguments -/

section Kernel
open Cert.KernelIdeal Cert.KernelIdeal.Gen Cert.KernelIdeal.Blocks Cert.KernelIdeal.Result

variable (m : (ℓ : Loc nD τ sig) → Buf (Elt Ideal) ℓ)

/-- The first result is y, in the kernel's spelling, of the six arguments. -/
theorem kernel_y (c : Dev nD) :
    shapeCast S64x3x64x64 (yFlat m c) shapeCasts_S64x12288_S64x3x64x64
      = yArrSplit (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  yFlat_reshape _ _ _ _ _ _ shapeCasts_S64x3x64x64_S64x12288 shapeCasts_S3x64x64x128_S12288x128 shapeCasts_S3x64x64_S1x12288
    shapeCasts_S64x12288_S64x3x64x64 (yFlat m c) (fun b n => by
      show yFlatAt (V m c main_v0) (V m c main_v1) (V m c main_v2) (V m c main_v3) (V m c main_v4) (V m c main_v5) b n = _
      rw [X2_eq, A2_eq, B2_eq, O2_eq, OB2_eq, R2_eq])

/-- The second result is the log-determinant of the arguments. -/
theorem kernel_ld (c : Dev nD) :
    shapeCast S64 (ldFlat m c) shapeCasts_S64x1_S64
      = ldArr (m ((c : Thread nD τ).loc main_arg0)) (m ((c : Thread nD τ).loc main_arg1)) (m ((c : Thread nD τ).loc main_arg2))
          (m ((c : Thread nD τ).loc main_arg3)) (m ((c : Thread nD τ).loc main_arg5)) :=
  ldFlat_reshape _ _ _ _ _ shapeCasts_S64x3x64x64_S64x12288 shapeCasts_S3x64x64x128_S12288x128 shapeCasts_S3x64x64_S1x12288
    shapeCasts_S64x1_S64 (ldFlat m c) (fun b u => by
      show (∑ n : Fin 12288, termFlatAt (V m c main_v0) (V m c main_v1) (V m c main_v2) (V m c main_v3) (V m c main_v5) b n) = _
      rw [X2_eq, A2_eq, B2_eq, O2_eq, R2_eq])

end Kernel

/-- With every input finite the kernel's spelling of y is the reference's, entry by entry. -/
theorem yArrSplit_eq_yArr (x : SX.Idx → EReal) (A B O : SW.Idx → EReal) (bias R : SP.Idx → EReal)
    (hx : ∀ i, IsFin (x i)) (hA : ∀ i, IsFin (A i)) (hB : ∀ i, IsFin (B i)) (hO : ∀ i, IsFin (O i)) :
    yArrSplit x A B O bias R = yArr x A B O bias R :=
  funext fun i => ySplit_eq_yJoint _ _ _ _ _ _ (hx i) (fun _ => hA _) (fun _ => hB _) (fun _ => hO _)

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end at y and the log-determinant of arguments that agree. -/
theorem algebraic : Cert.algebraic_KernelIdeal_ReferenceIdeal := by
  intro m ρ m' ρ' hpre hagree
  refine ⟨fun c => yArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => ldArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)), ?_, ?_⟩
  · refine (θ_run Cert.KernelIdeal.defs _ _).mono (fun _ h c => ?_) (Cert.KernelIdeal.Result.run m ρ)
    obtain ⟨h7, h8, hargs⟩ := h c
    obtain ⟨f0, f1, f2, f3, -, -⟩ := Cert.PreFinite.inputs_finite m hpre c
    exact ⟨h7.trans ((kernel_y m c).trans (yArrSplit_eq_yArr _ _ _ _ _ _ f0 f1 f2 f3)), h8.trans (kernel_ld m c), hargs⟩
  · refine (θ_run Cert.ReferenceIdeal.defs _ _).mono (fun _ h c => ?_) (Cert.ReferenceIdeal.Value.run (F := Ideal) m' ρ')
    obtain ⟨h45, h58, hargs⟩ := h c
    obtain ⟨a0, a1, a2, a3, a4, a5⟩ := hagree c
    refine ⟨h45.trans ?_, h58.trans ?_, hargs⟩
    · rw [Cert.ReferenceIdeal.Read.val_main_v45_eq, Cert.ReferenceIdeal.RefSpec.ref_y, a0, a1, a2, a3, a4, a5]
    · refine (Cert.ReferenceIdeal.Read.val_main_v58_eq _ _ _ _ _).trans ?_
      rw [Cert.ReferenceIdeal.RefSpec.ref_ld, a0, a1, a2, a3, a5]

end Cert.Proof.FlowClaims

end
-- ==== Proof.lean ====
/- The proof of `Cert.Claim` for one sinusoidal-flow layer.

   Per pixel, with w = softplus a, π = softmax o, u = w·x + β:
       y = x + tanh r · Σₑ πₑ (sin 2βₑ − sin 2uₑ) / (2 wₑ) + bias,   log-det of a batch row = Σ_pixels log (1 + (−tanh r) Σₑ πₑ cos 2uₑ).
   The kernel works on the flattened pixel axis in a 2 × 48 grid, spells the inner sum as a difference of two sums
   with the reciprocal 1 / (2 wₑ) taken once, and accumulates the log-determinant over the 48 pixel chunks of a batch
   tile.  On the extended reals the two spellings of y agree because every input is finite (the precondition), and
   the two log-determinants agree by regrouping one sum.

   Modules: FlowSpec (the mathematics), FlowAlgebra (the two spellings agree on finite data), FlowFlat and FlowReshape
   (the flattened layout and back), KernelPayload / KernelPieces / KernelBlocks / KernelRun (the kernel's body, its
   grid points, its run), RefIsSpec (the reference computes the specification), PreFinite (the precondition makes
   every input finite), FlowClaims (the five claims). -/
import proofs.«100866_j71459665871290_2_alg».proof.Defs
import proofs.«100866_j71459665871290_2_alg».proof.Proof.Gen.Kernel
import proofs.«100866_j71459665871290_2_alg».proof.Proof.Gen.Kernel.Skeleton
import proofs.«100866_j71459665871290_2_alg».proof.Proof.Gen.Kernel.Launch
import proofs.«100866_j71459665871290_2_alg».proof.Proof.Gen.Kernel.Points
import proofs.«100866_j71459665871290_2_alg».proof.Proof.Gen.Kernel.Frame
import proofs.«100866_j71459665871290_2_alg».proof.Proof.Gen.KernelIdeal
import proofs.«100866_j71459665871290_2_alg».proof.Proof.Gen.KernelIdeal.Skeleton
import proofs.«100866_j71459665871290_2_alg».proof.Proof.Gen.KernelIdeal.Launch
import proofs.«100866_j71459665871290_2_alg».proof.Proof.Gen.KernelIdeal.Points
import proofs.«100866_j71459665871290_2_alg».proof.Proof.Gen.KernelIdeal.Frame
import proofs.«100866_j71459665871290_2_alg».proof.Proof.Gen.ReferenceIdeal
import proofs.«100866_j71459665871290_2_alg».proof.Proof.Gen.Pre_finite_inputs
import proofs.«100866_j71459665871290_2_alg».proof.Proof.FlowClaims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    FlowClaims.frame_k, FlowClaims.frame_ki, FlowClaims.frame_ri, FlowClaims.preserves, FlowClaims.algebraic⟩

end Cert.Proof

end
